-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x2048x768 : Shape := ⟨3, ![32, 2048, 768]⟩
abbrev S30522x4 : Shape := ⟨2, ![30522, 4]⟩
abbrev S30522 : Shape := ⟨1, ![30522]⟩
abbrev S40943x300 : Shape := ⟨2, ![40943, 300]⟩
abbrev S300x768 : Shape := ⟨2, ![300, 768]⟩
abbrev S768 : Shape := ⟨1, ![768]⟩
abbrev S_ : Shape := ⟨0, ![]⟩

class Facts : Prop where
  bcast_S_S32x2048x768 : S_.BroadcastsInDim S32x2048x768 (![] : Fin 0 → Fin S32x2048x768.rank)
  reducesTo_S32x2048x768_S_d0_1_2 : S32x2048x768.ReducesTo [0, 1, 2] S_
  h_S_ : 0 < S_.numel
  bcast_S_S40943x300 : S_.BroadcastsInDim S40943x300 (![] : Fin 0 → Fin S40943x300.rank)
  reducesTo_S40943x300_S_d0_1 : S40943x300.ReducesTo [0, 1] S_
  bcast_S_S300x768 : S_.BroadcastsInDim S300x768 (![] : Fin 0 → Fin S300x768.rank)
  reducesTo_S300x768_S_d0_1 : S300x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : IVec S32x2048 32) (main_arg1 : FVec F S32x2048x768 .f32) (main_arg2 : IVec S30522x4 32) (main_arg3 : IVec S30522 32) (main_arg4 : FVec F S40943x300 .f32) (main_arg5 : FVec F S300x768 .f32) (main_arg6 : FVec F S768 .f32) : IVec S_ 1 :=
  let main_v0 : FVec F S32x2048x768 .f32 := Host.absf main_arg1
  let main_cst : FVec F S_ .f32 := constant S_ .f32 0x7F800000#32
  let main_v1 : FVec F S32x2048x768 .f32 := broadcastInDim S32x2048x768 ![] bcast_S_S32x2048x768 main_cst
  let main_v2 : IVec S32x2048x768 1 := cmpf .olt main_v0 main_v1
  let main_c : IVec S_ 1 := constantI S_ 1 1#1
  let main_v3 : IVec S_ 1 := (fun x v => Host.reduce IntOp.andi x v reducesTo_S32x2048x768_S_d0_1_2 h_S_) main_v2 main_c
  let main_v4 : FVec F S40943x300 .f32 := Host.absf main_arg4
  let main_cst_0 : FVec F S_ .f32 := constant S_ .f32 0x7F800000#32
  let main_v5 : FVec F S40943x300 .f32 := broadcastInDim S40943x300 ![] bcast_S_S40943x300 main_cst_0
  let main_v6 : IVec S40943x300 1 := cmpf .olt main_v4 main_v5
  let main_c_1 : IVec S_ 1 := constantI S_ 1 1#1
  let main_v7 : IVec S_ 1 := (fun x v => Host.reduce IntOp.andi x v reducesTo_S40943x300_S_d0_1 h_S_) main_v6 main_c_1
  let main_v8 : IVec S_ 1 := andi main_v3 main_v7
  let main_v9 : FVec F S300x768 .f32 := Host.absf main_arg5
  let main_cst_2 : FVec F S_ .f32 := constant S_ .f32 0x7F800000#32
  let main_v10 : FVec F S300x768 .f32 := broadcastInDim S300x768 ![] bcast_S_S300x768 main_cst_2
  let main_v11 : IVec S300x768 1 := cmpf .olt main_v9 main_v10
  let main_c_3 : IVec S_ 1 := constantI S_ 1 1#1
  let main_v12 : IVec S_ 1 := (fun x v => Host.reduce IntOp.andi x v reducesTo_S300x768_S_d0_1 h_S_) main_v11 main_c_3
  let main_v13 : IVec S_ 1 := andi main_v8 main_v12
  let main_v14 : FVec F S768 .f32 := Host.absf main_arg6
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x2048 : Shape := ⟨2, ![32, 2048]⟩
abbrev S32x2048x768 : Shape := ⟨3, ![32, 2048, 768]⟩
abbrev S30522x4 : Shape := ⟨2, ![30522, 4]⟩
abbrev S30522 : Shape := ⟨1, ![30522]⟩
abbrev S40943x300 : Shape := ⟨2, ![40943, 300]⟩
abbrev S300x768 : Shape := ⟨2, ![300, 768]⟩
abbrev S768 : Shape := ⟨1, ![768]⟩
abbrev S_ : Shape := ⟨0, ![]⟩
abbrev S32x2048x1 : Shape := ⟨3, ![32, 2048, 1]⟩
abbrev S32x2048x4 : Shape := ⟨3, ![32, 2048, 4]⟩
abbrev S4 : Shape := ⟨1, ![4]⟩
abbrev S1x1x4 : Shape := ⟨3, ![1, 1, 4]⟩
abbrev S32x2048x300 : Shape := ⟨3, ![32, 2048, 300]⟩
abbrev S65536x300 : Shape := ⟨2, ![65536, 300]⟩
abbrev S65536x768 : Shape := ⟨2, ![65536, 768]⟩
abbrev S1x768 : Shape := ⟨2, ![1, 768]⟩
abbrev S1024x300 : Shape := ⟨2, ![1024, 300]⟩
abbrev S1024x768 : Shape := ⟨2, ![1024, 768]⟩

abbrev nBuf : Space → Nat
  | .hbm => 115
  | .vmem => 8
  | .smem => 0
  | _ => 0

abbrev bufTy : (tb : Table) → Fin (tcTables nBuf tb) → BufTy
  | .hbm, ⟨0, _⟩ => ⟨S32x2048, .i32⟩
  | .hbm, ⟨1, _⟩ => ⟨S32x2048x768, .f32⟩
  | .hbm, ⟨2, _⟩ => ⟨S30522x4, .i32⟩
  | .hbm, ⟨3, _⟩ => ⟨S30522, .i32⟩
  | .hbm, ⟨4, _⟩ => ⟨S40943x300, .f32⟩
  | .hbm, ⟨5, _⟩ => ⟨S300x768, .f32⟩
  | .hbm, ⟨6, _⟩ => ⟨S768, .f32⟩
  | .hbm, ⟨7, _⟩ => ⟨S_, .i32⟩
  | .hbm, ⟨8, _⟩ => ⟨S32x2048, .i32⟩
  | .hbm, ⟨9, _⟩ => ⟨S32x2048, .i1⟩
  | .hbm, ⟨10, _⟩ => ⟨S_, .i32⟩
  | .hbm, ⟨11, _⟩ => ⟨S32x2048, .i32⟩
  | .hbm, ⟨12, _⟩ => ⟨S32x2048, .i32⟩
  | .hbm, ⟨13, _⟩ => ⟨S32x2048, .i32⟩
  | .hbm, ⟨14, _⟩ => ⟨S32x2048x1, .i32⟩
  | .hbm, ⟨15, _⟩ => ⟨S32x2048x4, .i32⟩
  | .hbm, ⟨16, _⟩ => ⟨S_, .i32⟩
  | .hbm, ⟨17, _⟩ => ⟨S32x2048, .i32⟩
  | .hbm, ⟨18, _⟩ => ⟨S32x2048, .i1⟩
  | .hbm, ⟨19, _⟩ => ⟨S_, .i32⟩
  | .hbm, ⟨20, _⟩ => ⟨S32x2048, .i32⟩
  | .hbm, ⟨21, _⟩ => ⟨S32x2048, .i32⟩
  | .hbm, ⟨22, _⟩ => ⟨S32x2048, .i32⟩
  | .hbm, ⟨23, _⟩ => ⟨S32x2048x1, .i32⟩
  | .hbm, ⟨24, _⟩ => ⟨S32x2048, .i32⟩
  | .hbm, ⟨25, _⟩ => ⟨S4, .i32⟩
  | .hbm, ⟨26, _⟩ => ⟨S1x1x4, .i32⟩
  | .hbm, ⟨27, _⟩ => ⟨S32x2048x1, .i32⟩
  | .hbm, ⟨28, _⟩ => ⟨S32x2048x4, .i32⟩
  | .hbm, ⟨29, _⟩ => ⟨S32x2048x4, .i32⟩
  | .hbm, ⟨30, _⟩ => ⟨S32x2048x4, .i1⟩
  | .hbm, ⟨31, _⟩ => ⟨S32x2048x4, .f32⟩
  | .hbm, ⟨32, _⟩ => ⟨S_, .i32⟩
  | .hbm, ⟨33, _⟩ => ⟨S32x2048, .i32⟩
  | .hbm, ⟨34, _⟩ => ⟨S32x2048, .i32⟩
  | .hbm, ⟨35, _⟩ => ⟨S32x2048, .f32⟩
  | .hbm, ⟨36, _⟩ => ⟨S32x2048x1, .f32⟩
  | .hbm, ⟨37, _⟩ => ⟨S32x2048x4, .f32⟩
  | .hbm, ⟨38, _⟩ => ⟨S32x2048x4, .f32⟩
  | .hbm, ⟨39, _⟩ => ⟨S_, .f32⟩
  | .hbm, ⟨40, _⟩ => ⟨S32x2048x300, .f32⟩
  | .hbm, ⟨41, _⟩ => ⟨S32x2048x1, .i32⟩
  | .hbm, ⟨42, _⟩ => ⟨S32x2048, .i32⟩
  | .hbm, ⟨43, _⟩ => ⟨S_, .i32⟩
  | .hbm, ⟨44, _⟩ => ⟨S32x2048, .i32⟩
  | .hbm, ⟨45, _⟩ => ⟨S32x2048, .i1⟩
  | .hbm, ⟨46, _⟩ => ⟨S_, .i32⟩
  | .hbm, ⟨47, _⟩ => ⟨S32x2048, .i32⟩
  | .hbm, ⟨48, _⟩ => ⟨S32x2048, .i32⟩
  | .hbm, ⟨49, _⟩ => ⟨S32x2048, .i32⟩
  | .hbm, ⟨50, _⟩ => ⟨S32x2048x1, .i32⟩
  | .hbm, ⟨51, _⟩ => ⟨S32x2048x300, .f32⟩
  | .hbm, ⟨52, _⟩ => ⟨S32x2048x1, .f32⟩
  | .hbm, ⟨53, _⟩ => ⟨S32x2048, .f32⟩
  | .hbm, ⟨54, _⟩ => ⟨S32x2048x1, .f32⟩
  | .hbm, ⟨55, _⟩ => ⟨S32x2048x300, .f32⟩
  | .hbm, ⟨56, _⟩ => ⟨S32x2048x300, .f32⟩
  | .hbm, ⟨57, _⟩ => ⟨S32x2048x300, .f32⟩
  | .hbm, ⟨58, _⟩ => ⟨S32x2048x1, .i32⟩
  | .hbm, ⟨59, _⟩ => ⟨S32x2048, .i32⟩
  | .hbm, ⟨60, _⟩ => ⟨S_, .i32⟩
  | .hbm, ⟨61, _⟩ => ⟨S32x2048, .i32⟩
  | .hbm, ⟨62, _⟩ => ⟨S32x2048, .i1⟩
  | .hbm, ⟨63, _⟩ => ⟨S_, .i32⟩
  | .hbm, ⟨64, _⟩ => ⟨S32x2048, .i32⟩
  | .hbm, ⟨65, _⟩ => ⟨S32x2048, .i32⟩
  | .hbm, ⟨66, _⟩ => ⟨S32x2048, .i32⟩
  | .hbm, ⟨67, _⟩ => ⟨S32x2048x1, .i32⟩
  | .hbm, ⟨68, _⟩ => ⟨S32x2048x300, .f32⟩
  | .hbm, ⟨69, _⟩ => ⟨S32x2048x1, .f32⟩
  | .hbm, ⟨70, _⟩ => ⟨S32x2048, .f32⟩
  | .hbm, ⟨71, _⟩ => ⟨S32x2048x1, .f32⟩
  | .hbm, ⟨72, _⟩ => ⟨S32x2048x300, .f32⟩
  | .hbm, ⟨73, _⟩ => ⟨S32x2048x300, .f32⟩
  | .hbm, ⟨74, _⟩ => ⟨S32x2048x300, .f32⟩
  | .hbm, ⟨75, _⟩ => ⟨S32x2048x1, .i32⟩
  | .hbm, ⟨76, _⟩ => ⟨S32x2048, .i32⟩
  | .hbm, ⟨77, _⟩ => ⟨S_, .i32⟩
  | .hbm, ⟨78, _⟩ => ⟨S32x2048, .i32⟩
  | .hbm, ⟨79, _⟩ => ⟨S32x2048, .i1⟩
  | .hbm, ⟨80, _⟩ => ⟨S_, .i32⟩
  | .hbm, ⟨81, _⟩ => ⟨S32x2048, .i32⟩
  | .hbm, ⟨82, _⟩ => ⟨S32x2048, .i32⟩
  | .hbm, ⟨83, _⟩ => ⟨S32x2048, .i32⟩
  | .hbm, ⟨84, _⟩ => ⟨S32x2048x1, .i32⟩
  | .hbm, ⟨85, _⟩ => ⟨S32x2048x300, .f32⟩
  | .hbm, ⟨86, _⟩ => ⟨S32x2048x1, .f32⟩
  | .hbm, ⟨87, _⟩ => ⟨S32x2048, .f32⟩
  | .hbm, ⟨88, _⟩ => ⟨S32x2048x1, .f32⟩
  | .hbm, ⟨89, _⟩ => ⟨S32x2048x300, .f32⟩
  | .hbm, ⟨90, _⟩ => ⟨S32x2048x300, .f32⟩
  | .hbm, ⟨91, _⟩ => ⟨S32x2048x300, .f32⟩
  | .hbm, ⟨92, _⟩ => ⟨S32x2048x1, .i32⟩
  | .hbm, ⟨93, _⟩ => ⟨S32x2048, .i32⟩
  | .hbm, ⟨94, _⟩ => ⟨S_, .i32⟩
  | .hbm, ⟨95, _⟩ => ⟨S32x2048, .i32⟩
  | .hbm, ⟨96, _⟩ => ⟨S32x2048, .i1⟩
  | .hbm, ⟨97, _⟩ => ⟨S_, .i32⟩
  | .hbm, ⟨98, _⟩ => ⟨S32x2048, .i32⟩
  | .hbm, ⟨99, _⟩ => ⟨S32x2048, .i32⟩
  | .hbm, ⟨100, _⟩ => ⟨S32x2048, .i32⟩
  | .hbm, ⟨101, _⟩ => ⟨S32x2048x1, .i32⟩
  | .hbm, ⟨102, _⟩ => ⟨S32x2048x300, .f32⟩
  | .hbm, ⟨103, _⟩ => ⟨S32x2048x1, .f32⟩
  | .hbm, ⟨104, _⟩ => ⟨S32x2048, .f32⟩
  | .hbm, ⟨105, _⟩ => ⟨S32x2048x1, .f32⟩
  | .hbm, ⟨106, _⟩ => ⟨S32x2048x300, .f32⟩
  | .hbm, ⟨107, _⟩ => ⟨S32x2048x300, .f32⟩
  | .hbm, ⟨108, _⟩ => ⟨S32x2048x300, .f32⟩
  | .hbm, ⟨109, _⟩ => ⟨S32x2048x300, .bf16⟩
  | .hbm, ⟨110, _⟩ => ⟨S65536x300, .bf16⟩
  | .hbm, ⟨111, _⟩ => ⟨S65536x768, .f32⟩
  | .hbm, ⟨112, _⟩ => ⟨S1x768, .f32⟩
  | .hbm, ⟨113, _⟩ => ⟨S65536x768, .f32⟩
  | .hbm, ⟨114, _⟩ => ⟨S32x2048x768, .f32⟩
  | .local _ .vmem, ⟨0, _⟩ => ⟨S1024x300, .bf16⟩
  | .local _ .vmem, ⟨1, _⟩ => ⟨S1024x300, .bf16⟩
  | .local _ .vmem, ⟨2, _⟩ => ⟨S300x768, .f32⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_8 : Ref sig .tc := ⟨.hbm, 77, rfl⟩
abbrev main_v60 : Ref sig .tc := ⟨.hbm, 78, rfl⟩
abbrev main_v61 : Ref sig .tc := ⟨.hbm, 79, rfl⟩
abbrev main_c_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_10 : Ref sig .tc := ⟨.hbm, 94, rfl⟩
abbrev main_v75 : Ref sig .tc := ⟨.hbm, 95, rfl⟩
abbrev main_v76 : Ref sig .tc := ⟨.hbm, 96, rfl⟩
abbrev main_c_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S4_S1x1x4_2 : S4.BroadcastsInDim S1x1x4 (![2] : Fin 1 → Fin S1x1x4.rank)
  bcast_S1x1x4_S32x2048x4_0_1_2 : S1x1x4.BroadcastsInDim S32x2048x4 (![0, 1, 2] : Fin 3 → Fin S32x2048x4.rank)
  bcast_S32x2048x1_S32x2048x4_0_1_2 : S32x2048x1.BroadcastsInDim S32x2048x4 (![0, 1, 2] : Fin 3 → Fin S32x2048x4.rank)
  bcast_S_S32x2048x300 : S_.BroadcastsInDim S32x2048x300 (![] : Fin 0 → Fin S32x2048x300.rank)
  slices_S32x2048x4_S32x2048x1_0_0_0 : S32x2048x4.Slices ![0, 0, 0] S32x2048x1
  shapeCasts_S32x2048x1_S32x2048 : S32x2048x1.ShapeCasts S32x2048
  bcast_S32x2048x1_S32x2048x300_0_1_2 : S32x2048x1.BroadcastsInDim S32x2048x300 (![0, 1, 2] : Fin 3 → Fin S32x2048x300.rank)
  slices_S32x2048x4_S32x2048x1_0_0_1 : S32x2048x4.Slices ![0, 0, 1] S32x2048x1
  slices_S32x2048x4_S32x2048x1_0_0_2 : S32x2048x4.Slices ![0, 0, 2] S32x2048x1
  slices_S32x2048x4_S32x2048x1_0_0_3 : S32x2048x4.Slices ![0, 0, 3] S32x2048x1
  bitsLt_bf16_f32 : FTy.bits .bf16 < FTy.bits .f32
  shapeCasts_S32x2048x300_S65536x300 : S32x2048x300.ShapeCasts S65536x300
  shapeCasts_S32x2048x768_S65536x768 : S32x2048x768.ShapeCasts S65536x768
  shapeCasts_S768_S1x768 : S768.ShapeCasts S1x768
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S300x768_S300x768_0_0 : ∀ a, (![0, 0] : Fin 2 → Nat) a + S300x768.size a ≤ S300x768.size a
  h_S300x768 : 0 < S300x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S65536x768_S32x2048x768 : S65536x768.ShapeCasts S32x2048x768
  gather_S30522x4_S32x2048x1_S32x2048x4_2_0_n_n_0_2_14_wf : GatherDims.WF S30522x4 S32x2048x1 S32x2048x4 [2] [0] [] [0] [] 2 ![1, 4]
  gather_S30522_S32x2048x1_S32x2048_n_0_n_n_0_2_1_wf : GatherDims.WF S30522 S32x2048x1 S32x2048 [] [0] [] [0] [] 2 ![1]
  gather_S40943x300_S32x2048x1_S32x2048x300_2_0_n_n_0_2_1300_wf : GatherDims.WF S40943x300 S32x2048x1 S32x2048x300 [2] [0] [] [0] [] 2 ![1, 300]
  dot_S1024x300_S300x768_S1024x768_1_0_0_1_n_n_wf : DotDims.WF S1024x300 S300x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S65536x300.size a
  hwx0_0 : ∀ i : grid0.Coords, EltTy.bits .bf16 = 32 ∨ (Rect.block (s := S65536x300) S1024x300.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x768.size a ≤ S300x768.size a
  hwx0_1 : ∀ i : grid0.Coords, EltTy.bits .f32 = 32 ∨ (Rect.block (s := S300x768) S300x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S65536x768.size a
  hwx0_3 : ∀ i : grid0.Coords, EltTy.bits .f32 = 32 ∨ (Rect.block (s := S65536x768) S1024x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S65536x768.size a
  hwx0_4 : ∀ i : grid0.Coords, EltTy.bits .f32 = 32 ∨ (Rect.block (s := S65536x768) S1024x768.size (cc0_transform_4 i) (hinb0_4 i)).WholeWords (EltTy.packing .f32)

variable [Facts₀]

def gather_S30522x4_S32x2048x1_S32x2048x4_2_0_n_n_0_2_14 : GatherDims S30522x4 S32x2048x1 S32x2048x4 where
  offsetDims := [2]
  collapsedSliceDims := [0]
  operandBatchingDims := []
  startIndicesBatchingDims := []
  startIndexMap := [0]
  indexVectorDim := 2
  sliceSizes := ![1, 4]
  wf := gather_S30522x4_S32x2048x1_S32x2048x4_2_0_n_n_0_2_14_wf
def gather_S30522_S32x2048x1_S32x2048_n_0_n_n_0_2_1 : GatherDims S30522 S32x2048x1 S32x2048 where
  offsetDims := []
  collapsedSliceDims := [0]
  operandBatchingDims := []
  startIndicesBatchingDims := []
  startIndexMap := [0]
  indexVectorDim := 2
  sliceSizes := ![1]
  wf := gather_S30522_S32x2048x1_S32x2048_n_0_n_n_0_2_1_wf
def gather_S40943x300_S32x2048x1_S32x2048x300_2_0_n_n_0_2_1300 : GatherDims S40943x300 S32x2048x1 S32x2048x300 where
  offsetDims := [2]
  collapsedSliceDims := [0]
  operandBatchingDims := []
  startIndicesBatchingDims := []
  startIndexMap := [0]
  indexVectorDim := 2
  sliceSizes := ![1, 300]
  wf := gather_S40943x300_S32x2048x1_S32x2048x300_2_0_n_n_0_2_1300_wf
def dot_S1024x300_S300x768_S1024x768_1_0_0_1_n_n : DotDims S1024x300 S300x768 S1024x768 where
  lhsContracting := [1]
  rhsContracting := [0]
  lhsNonContracting := [0]
  rhsNonContracting := [1]
  lhsBatch := []
  rhsBatch := []
  wf := dot_S1024x300_S300x768_S1024x768_1_0_0_1_n_n_wf

abbrev win0_0 : Pipeline.Window sig grid0 :=
  Pipeline.Window.ofSpec (Memref.whole main_v89) S1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S300x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v91) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v92) S1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048 : Shape := ⟨2, ![32, 2048]⟩
abbrev S32x2048x768 : Shape := ⟨3, ![32, 2048, 768]⟩
abbrev S30522x4 : Shape := ⟨2, ![30522, 4]⟩
abbrev S30522 : Shape := ⟨1, ![30522]⟩
abbrev S40943x300 : Shape := ⟨2, ![40943, 300]⟩
abbrev S300x768 : Shape := ⟨2, ![300, 768]⟩
abbrev S768 : Shape := ⟨1, ![768]⟩
abbrev S_ : Shape := ⟨0, ![]⟩
abbrev S32x2048x1 : Shape := ⟨3, ![32, 2048, 1]⟩
abbrev S32x2048x4 : Shape := ⟨3, ![32, 2048, 4]⟩
abbrev S4 : Shape := ⟨1, ![4]⟩
abbrev S1x1x4 : Shape := ⟨3, ![1, 1, 4]⟩
abbrev S32x2048x4x1 : Shape := ⟨4, ![32, 2048, 4, 1]⟩
abbrev S32x2048x4x300 : Shape := ⟨4, ![32, 2048, 4, 300]⟩
abbrev S32x2048x300 : Shape := ⟨3, ![32, 2048, 300]⟩
abbrev S1x1x768 : Shape := ⟨3, ![1, 1, 768]⟩

abbrev nBuf : Space → Nat
  | .hbm => 58
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32x2048x768, .f32⟩
  | .hbm, ⟨2, _⟩ => ⟨S30522x4, .i32⟩
  | .hbm, ⟨3, _⟩ => ⟨S30522, .i32⟩
  | .hbm, ⟨4, _⟩ => ⟨S40943x300, .f32⟩
  | .hbm, ⟨5, _⟩ => ⟨S300x768, .f32⟩
  | .hbm, ⟨6, _⟩ => ⟨S768, .f32⟩
  | .hbm, ⟨7, _⟩ => ⟨S_, .i32⟩
  | .hbm, ⟨8, _⟩ => ⟨S32x2048, .i32⟩
  | .hbm, ⟨9, _⟩ => ⟨S32x2048, .i1⟩
  | .hbm, ⟨10, _⟩ => ⟨S_, .i32⟩
  | .hbm, ⟨11, _⟩ => ⟨S32x2048, .i32⟩
  | .hbm, ⟨12, _⟩ => ⟨S32x2048, .i32⟩
  | .hbm, ⟨13, _⟩ => ⟨S32x2048, .i32⟩
  | .hbm, ⟨14, _⟩ => ⟨S32x2048x1, .i32⟩
  | .hbm, ⟨15, _⟩ => ⟨S32x2048x4, .i32⟩
  | .hbm, ⟨16, _⟩ => ⟨S_, .i32⟩
  | .hbm, ⟨17, _⟩ => ⟨S32x2048, .i32⟩
  | .hbm, ⟨18, _⟩ => ⟨S32x2048, .i1⟩
  | .hbm, ⟨19, _⟩ => ⟨S_, .i32⟩
  | .hbm, ⟨20, _⟩ => ⟨S32x2048, .i32⟩
  | .hbm, ⟨21, _⟩ => ⟨S32x2048, .i32⟩
  | .hbm, ⟨22, _⟩ => ⟨S32x2048, .i32⟩
  | .hbm, ⟨23, _⟩ => ⟨S32x2048x1, .i32⟩
  | .hbm, ⟨24, _⟩ => ⟨S32x2048, .i32⟩
  | .hbm, ⟨25, _⟩ => ⟨S4, .i32⟩
  | .hbm, ⟨26, _⟩ => ⟨S32x2048x1, .i32⟩
  | .hbm, ⟨27, _⟩ => ⟨S1x1x4, .i32⟩
  | .hbm, ⟨28, _⟩ => ⟨S32x2048x4, .i32⟩
  | .hbm, ⟨29, _⟩ => ⟨S32x2048x4, .i32⟩
  | .hbm, ⟨30, _⟩ => ⟨S32x2048x4, .i1⟩
  | .hbm, ⟨31, _⟩ => ⟨S32x2048x4, .f32⟩
  | .hbm, ⟨32, _⟩ => ⟨S_, .i32⟩
  | .hbm, ⟨33, _⟩ => ⟨S32x2048x4, .i32⟩
  | .hbm, ⟨34, _⟩ => ⟨S32x2048x4, .i1⟩
  | .hbm, ⟨35, _⟩ => ⟨S_, .i32⟩
  | .hbm, ⟨36, _⟩ => ⟨S32x2048x4, .i32⟩
  | .hbm, ⟨37, _⟩ => ⟨S32x2048x4, .i32⟩
  | .hbm, ⟨38, _⟩ => ⟨S32x2048x4, .i32⟩
  | .hbm, ⟨39, _⟩ => ⟨S32x2048x4x1, .i32⟩
  | .hbm, ⟨40, _⟩ => ⟨S32x2048x4x300, .f32⟩
  | .hbm, ⟨41, _⟩ => ⟨S32x2048x4x1, .f32⟩
  | .hbm, ⟨42, _⟩ => ⟨S32x2048x4x300, .f32⟩
  | .hbm, ⟨43, _⟩ => ⟨S32x2048x4x300, .f32⟩
  | .hbm, ⟨44, _⟩ => ⟨S_, .i32⟩
  | .hbm, ⟨45, _⟩ => ⟨S32x2048, .i32⟩
  | .hbm, ⟨46, _⟩ => ⟨S32x2048, .i32⟩
  | .hbm, ⟨47, _⟩ => ⟨S32x2048, .f32⟩
  | .hbm, ⟨48, _⟩ => ⟨S_, .f32⟩
  | .hbm, ⟨49, _⟩ => ⟨S32x2048x300, .f32⟩
  | .hbm, ⟨50, _⟩ => ⟨S32x2048x1, .f32⟩
  | .hbm, ⟨51, _⟩ => ⟨S32x2048x300, .f32⟩
  | .hbm, ⟨52, _⟩ => ⟨S32x2048x300, .f32⟩
  | .hbm, ⟨53, _⟩ => ⟨S32x2048x768, .f32⟩
  | .hbm, ⟨54, _⟩ => ⟨S1x1x768, .f32⟩
  | .hbm, ⟨55, _⟩ => ⟨S32x2048x768, .f32⟩
  | .hbm, ⟨56, _⟩ => ⟨S32x2048x768, .f32⟩
  | .hbm, ⟨57, _⟩ => ⟨S32x2048x768, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S4_S1x1x4_2 : S4.BroadcastsInDim S1x1x4 (![2] : Fin 1 → Fin S1x1x4.rank)
  bcast_S1x1x4_S32x2048x4_0_1_2 : S1x1x4.BroadcastsInDim S32x2048x4 (![0, 1, 2] : Fin 3 → Fin S32x2048x4.rank)
  bcast_S32x2048x1_S32x2048x4_0_1_2 : S32x2048x1.BroadcastsInDim S32x2048x4 (![0, 1, 2] : Fin 3 → Fin S32x2048x4.rank)
  bcast_S_S32x2048x4 : S_.BroadcastsInDim S32x2048x4 (![] : Fin 0 → Fin S32x2048x4.rank)
  bcast_S32x2048x4_S32x2048x4x1_0_1_2 : S32x2048x4.BroadcastsInDim S32x2048x4x1 (![0, 1, 2] : Fin 3 → Fin S32x2048x4x1.rank)
  bcast_S32x2048x4x1_S32x2048x4x300_0_1_2_3 : S32x2048x4x1.BroadcastsInDim S32x2048x4x300 (![0, 1, 2, 3] : Fin 4 → Fin S32x2048x4x300.rank)
  reducesTo_S32x2048x4x300_S32x2048x300_d2 : S32x2048x4x300.ReducesTo [2] S32x2048x300
  h_S_ : 0 < S_.numel
  bcast_S32x2048x1_S32x2048x300_0_1_2 : S32x2048x1.BroadcastsInDim S32x2048x300 (![0, 1, 2] : Fin 3 → Fin S32x2048x300.rank)
  bcast_S768_S1x1x768_2 : S768.BroadcastsInDim S1x1x768 (![2] : Fin 1 → Fin S1x1x768.rank)
  bcast_S1x1x768_S32x2048x768_0_1_2 : S1x1x768.BroadcastsInDim S32x2048x768 (![0, 1, 2] : Fin 3 → Fin S32x2048x768.rank)
  gather_S30522x4_S32x2048x1_S32x2048x4_2_0_n_n_0_2_14_wf : GatherDims.WF S30522x4 S32x2048x1 S32x2048x4 [2] [0] [] [0] [] 2 ![1, 4]
  gather_S30522_S32x2048x1_S32x2048_n_0_n_n_0_2_1_wf : GatherDims.WF S30522 S32x2048x1 S32x2048 [] [0] [] [0] [] 2 ![1]
  gather_S40943x300_S32x2048x4x1_S32x2048x4x300_3_0_n_n_0_3_1300_wf : GatherDims.WF S40943x300 S32x2048x4x1 S32x2048x4x300 [3] [0] [] [0] [] 3 ![1, 300]
  dot_S32x2048x300_S300x768_S32x2048x768_2_0_01_1_n_n_wf : DotDims.WF S32x2048x300 S300x768 S32x2048x768 [2] [0] [0, 1] [1] [] []

variable [Facts₀]

def gather_S30522x4_S32x2048x1_S32x2048x4_2_0_n_n_0_2_14 : GatherDims S30522x4 S32x2048x1 S32x2048x4 where
  offsetDims := [2]
  collapsedSliceDims := [0]
  operandBatchingDims := []
  startIndicesBatchingDims := []
  startIndexMap := [0]
  indexVectorDim := 2
  sliceSizes := ![1, 4]
  wf := gather_S30522x4_S32x2048x1_S32x2048x4_2_0_n_n_0_2_14_wf
def gather_S30522_S32x2048x1_S32x2048_n_0_n_n_0_2_1 : GatherDims S30522 S32x2048x1 S32x2048 where
  offsetDims := []
  collapsedSliceDims := [0]
  operandBatchingDims := []
  startIndicesBatchingDims := []
  startIndexMap := [0]
  indexVectorDim := 2
  sliceSizes := ![1]
  wf := gather_S30522_S32x2048x1_S32x2048_n_0_n_n_0_2_1_wf
def gather_S40943x300_S32x2048x4x1_S32x2048x4x300_3_0_n_n_0_3_1300 : GatherDims S40943x300 S32x2048x4x1 S32x2048x4x300 where
  offsetDims := [3]
  collapsedSliceDims := [0]
  operandBatchingDims := []
  startIndicesBatchingDims := []
  startIndexMap := [0]
  indexVectorDim := 3
  sliceSizes := ![1, 300]
  wf := gather_S40943x300_S32x2048x4x1_S32x2048x4x300_3_0_n_n_0_3_1300_wf
def dot_S32x2048x300_S300x768_S32x2048x768_2_0_01_1_n_n : DotDims S32x2048x300 S300x768 S32x2048x768 where
  lhsContracting := [2]
  rhsContracting := [0]
  lhsNonContracting := [0, 1]
  rhsNonContracting := [1]
  lhsBatch := []
  rhsBatch := []
  wf := dot_S32x2048x300_S300x768_S32x2048x768_2_0_01_1_n_n_wf

class Facts : Prop extends Facts₀ where

variable [Facts]
-- ==== Proof.LibGatherBatchRows.lean ====
/-
  A host gather of whole rows of a matrix by an ARRAY of row numbers, read at one element.

  x[idx] for a matrix x of shape [N, C] and an integer array idx of two or three axes: the lowering appends a unit
  axis to the indices (the index vector, of length one) and gathers with axis 0 collapsed and indexed and axis 1
  carried over whole.  For start indices [B, S, 1] the result [B, S, C] holds at (b, s, c) the operand's element
  (r, c), where r is the start index at (b, s, 0) read as a signed integer and clamped into [0, N - 1]; for start
  indices [B, S, K, 1] the result [B, S, K, C] holds at (b, s, k, c) the operand's (r, c) with r read at
  (b, s, k, 0).  The clamp is the gather's own: a start index below zero reads row 0, one past the end the last row.
-/
import Idealize.ShloMosaic.PureOps.ShapeOps
import Idealize.ShloMosaic.Lib.ValueIdx

namespace Cert.GatherBatchRows

open Idealize.ShloMosaic Idealize.ShloMosaic.ValueIdx

variable {α : Type} {B S K N C w : Nat}

/-- The row a start index names: the word read signed, clamped into [0, N - 1]. -/
def clampRow (hN : 0 < N) (v : BitVec w) : Fin N := ⟨min v.toInt.toNat (N - 1), by omega⟩

/-! ## Row numbers of two axes -/

/-- The dimension numbers of x[idx] for idx of two axes: operand axis 0 collapsed and indexed through the trailing
    index vector, operand axis 1 carried over whole as the result's last axis. -/
abbrev rows3Dims (N B S C : Nat) (sb : List (Fin 3))
    (wf : GatherDims.WF ⟨2, ![N, C]⟩ ⟨3, ![B, S, 1]⟩ ⟨3, ![B, S, C]⟩ [2] [0] [] [0] sb 2 ![1, C]) :
    GatherDims ⟨2, ![N, C]⟩ ⟨3, ![B, S, 1]⟩ ⟨3, ![B, S, C]⟩ where
  offsetDims := [2]
  collapsedSliceDims := [0]
  operandBatchingDims := []
  startIndicesBatchingDims := sb
  startIndexMap := [0]
  indexVectorDim := 2
  sliceSizes := ![1, C]
  wf := wf

theorem rows3Dims_apply (hN : 0 < N) (sb : List (Fin 3))
    (wf : GatherDims.WF ⟨2, ![N, C]⟩ ⟨3, ![B, S, 1]⟩ ⟨3, ![B, S, C]⟩ [2] [0] [] [0] sb 2 ![1, C])
    (x : (⟨2, ![N, C]⟩ : Shape).Idx → α) (idx : IVec ⟨3, ![B, S, 1]⟩ w) (b : Fin B) (s : Fin S) (c : Fin C) :
    Host.gather (rows3Dims N B S C sb wf) x idx (ix3 b s c) = x (ix2 (clampRow hN (idx (ix3 b s 0))) c) := by
  unfold Host.gather
  congr 1
  funext a
  refine Fin.ext ?_
  match a with
  | ⟨0, _⟩ =>
    show (rows3Dims N B S C sb wf).start (ix3 b s c) idx 0 + (rows3Dims N B S C sb wf).batchCoord (ix3 b s c) 0
      + (rows3Dims N B S C sb wf).offCoord (ix3 b s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N B S C sb wf).startIndexMap from List.mem_singleton.mpr rfl)]
    have hsi : (rows3Dims N B S C sb wf).siIdx (ix3 b s c) ⟨List.idxOf (0 : Fin 2) (rows3Dims N B S C sb wf).startIndexMap,
        List.idxOf_lt_length_iff.2 (List.mem_singleton.mpr rfl)⟩ = ix3 b s 0 := by
      funext b'; refine Fin.ext ?_
      match b' with
      | ⟨0, _⟩ => rfl
      | ⟨1, _⟩ => rfl
      | ⟨2, _⟩ => rfl
    rw [hsi]
    rfl
  | ⟨1, _⟩ =>
    show (rows3Dims N B S C sb wf).start (ix3 b s c) idx 1 + (rows3Dims N B S C sb wf).batchCoord (ix3 b s c) 1
      + (rows3Dims N B S C sb wf).offCoord (ix3 b s c) 1 = c.val
    rw [GatherDims.batchCoord_eq_zero _ _ _ List.not_mem_nil]
    have hst : (rows3Dims N B S C sb wf).start (ix3 b s c) idx 1 = 0 := by
      unfold GatherDims.start
      rw [dif_neg (by simp)]
    have hoc : (rows3Dims N B S C sb wf).offCoord (ix3 b s c) 1 = c.val := by
      unfold GatherDims.offCoord
      rw [dif_pos (by simp [GatherDims.sKept, Shape.kept])]
      rfl
    rw [hst, hoc]
    omega

/-- Rows of a matrix gathered by a two-axis array of row numbers: result (b, s, c) is the operand at
    (the clamped start index of (b, s), c). -/
theorem gather_rows3 (hN : 0 < N) (d : GatherDims ⟨2, ![N, C]⟩ ⟨3, ![B, S, 1]⟩ ⟨3, ![B, S, C]⟩)
    (hod : d.offsetDims = [2]) (hcs : d.collapsedSliceDims = [0]) (hob : d.operandBatchingDims = [])
    (hsm : d.startIndexMap = [0]) (hiv : d.indexVectorDim = 2) (hss : d.sliceSizes = ![1, C])
    (x : (⟨2, ![N, C]⟩ : Shape).Idx → α) (idx : IVec ⟨3, ![B, S, 1]⟩ w) (b : Fin B) (s : Fin S) (c : Fin C) :
    Host.gather d x idx (ix3 b s c) = x (ix2 (clampRow hN (idx (ix3 b s 0))) c) := by
  obtain ⟨od, cs, ob, sb, sm, iv, ss, wf⟩ := d
  simp only at hod hcs hob hsm hiv hss
  subst hod hcs hob hsm hiv hss
  exact rows3Dims_apply hN sb wf x idx b s c

/-! ## Row numbers of three axes -/

/-- The dimension numbers of x[idx] for idx of three axes. -/
abbrev rows4Dims (N B S K C : Nat) (sb : List (Fin 4))
    (wf : GatherDims.WF ⟨2, ![N, C]⟩ ⟨4, ![B, S, K, 1]⟩ ⟨4, ![B, S, K, C]⟩ [3] [0] [] [0] sb 3 ![1, C]) :
    GatherDims ⟨2, ![N, C]⟩ ⟨4, ![B, S, K, 1]⟩ ⟨4, ![B, S, K, C]⟩ where
  offsetDims := [3]
  collapsedSliceDims := [0]
  operandBatchingDims := []
  startIndicesBatchingDims := sb
  startIndexMap := [0]
  indexVectorDim := 3
  sliceSizes := ![1, C]
  wf := wf

theorem rows4Dims_apply (hN : 0 < N) (sb : List (Fin 4))
    (wf : GatherDims.WF ⟨2, ![N, C]⟩ ⟨4, ![B, S, K, 1]⟩ ⟨4, ![B, S, K, C]⟩ [3] [0] [] [0] sb 3 ![1, C])
    (x : (⟨2, ![N, C]⟩ : Shape).Idx → α) (idx : IVec ⟨4, ![B, S, K, 1]⟩ w) (b : Fin B) (s : Fin S) (k : Fin K) (c : Fin C) :
    Host.gather (rows4Dims N B S K C sb wf) x idx (ix4 b s k c) = x (ix2 (clampRow hN (idx (ix4 b s k 0))) c) := by
  unfold Host.gather
  congr 1
  funext a
  refine Fin.ext ?_
  match a with
  | ⟨0, _⟩ =>
    show (rows4Dims N B S K C sb wf).start (ix4 b s k c) idx 0 + (rows4Dims N B S K C sb wf).batchCoord (ix4 b s k c) 0
      + (rows4Dims N B S K C sb wf).offCoord (ix4 b s k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows4Dims N B S K C sb wf).startIndexMap from List.mem_singleton.mpr rfl)]
    have hsi : (rows4Dims N B S K C sb wf).siIdx (ix4 b s k c) ⟨List.idxOf (0 : Fin 2) (rows4Dims N B S K C sb wf).startIndexMap,
        List.idxOf_lt_length_iff.2 (List.mem_singleton.mpr rfl)⟩ = ix4 b s k 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rows4Dims N B S K C sb wf).start (ix4 b s k c) idx 1 + (rows4Dims N B S K C sb wf).batchCoord (ix4 b s k c) 1
      + (rows4Dims N B S K C sb wf).offCoord (ix4 b s k c) 1 = c.val
    rw [GatherDims.batchCoord_eq_zero _ _ _ List.not_mem_nil]
    have hst : (rows4Dims N B S K C sb wf).start (ix4 b s k c) idx 1 = 0 := by
      unfold GatherDims.start
      rw [dif_neg (by simp)]
    have hoc : (rows4Dims N B S K C sb wf).offCoord (ix4 b s k c) 1 = c.val := by
      unfold GatherDims.offCoord
      rw [dif_pos (by simp [GatherDims.sKept, Shape.kept])]
      rfl
    rw [hst, hoc]
    omega

/-- Rows of a matrix gathered by a three-axis array of row numbers: result (b, s, k, c) is the operand at
    (the clamped start index of (b, s, k), c). -/
theorem gather_rows4 (hN : 0 < N) (d : GatherDims ⟨2, ![N, C]⟩ ⟨4, ![B, S, K, 1]⟩ ⟨4, ![B, S, K, C]⟩)
    (hod : d.offsetDims = [3]) (hcs : d.collapsedSliceDims = [0]) (hob : d.operandBatchingDims = [])
    (hsm : d.startIndexMap = [0]) (hiv : d.indexVectorDim = 3) (hss : d.sliceSizes = ![1, C])
    (x : (⟨2, ![N, C]⟩ : Shape).Idx → α) (idx : IVec ⟨4, ![B, S, K, 1]⟩ w) (b : Fin B) (s : Fin S) (k : Fin K) (c : Fin C) :
    Host.gather d x idx (ix4 b s k c) = x (ix2 (clampRow hN (idx (ix4 b s k 0))) c) := by
  obtain ⟨od, cs, ob, sb, sm, iv, ss, wf⟩ := d
  simp only at hod hcs hob hsm hiv hss
  subst hod hcs hob hsm hiv hss
  exact rows4Dims_apply hN sb wf x idx b s k c

end Cert.GatherBatchRows
-- ==== Proof.LibTrailingUnit.lean ====
/-
  A trailing unit axis: appended, broadcast out, and sliced away, each read at one index.

  The host spells "per-row scalar times row" (w[..., None] * x) and "one slot of the last axis" (x[..., k]) through a
  unit axis at the end of the shape.  An [a, b] array given a trailing unit axis reads at (i, j, 0) its entry (i, j);
  an [a, b, 1] array broadcast along its unit axis to [a, b, c] reads at (i, j, l) its entry (i, j, 0); the same one
  rank up, [a, b, n] to [a, b, n, 1] to [a, b, n, c]; and slot k of the last axis of an [a, b, n] array, sliced to
  [a, b, 1] and squeezed to [a, b], reads at (i, j) the entry (i, j, k).  All sizes are generic: an axis of extent one
  in the operand is read at coordinate 0, which is the only coordinate it has.
-/
import Idealize.ShloMosaic.Lib.Pipeline.Value
import Idealize.ShloMosaic.Lib.ValueIdx

namespace Cert.TrailingUnit

open Idealize.ShloMosaic Idealize.ShloMosaic.ValueIdx

variable {α : Type} {a b c n : ℕ}

/-- A coordinate of an axis is the coordinate a broadcast reads there: itself, or 0 when the axis has extent one. -/
theorem coord_or_zero {a : ℕ} (i : Fin a) : i.val = if a = 1 then 0 else i.val := by
  split
  · rename_i h; subst h; exact Fin.val_eq_zero i
  · rfl

/-- [a, b] with a unit axis appended, read at (i, j, z): the entry (i, j). -/
theorem appendUnit2_apply (x : (⟨2, ![a, b]⟩ : Shape).Idx → α)
    (h : (⟨2, ![a, b]⟩ : Shape).BroadcastsInDim ⟨3, ![a, b, 1]⟩ ![0, 1]) (i : Fin a) (j : Fin b) (z : Fin 1) :
    broadcastInDim ⟨3, ![a, b, 1]⟩ ![0, 1] h x (ix3 i j z) = x (ix2 i j) :=
  broadcastInDim_apply _ h x _ _ (fun d => match d with
    | ⟨0, _⟩ => coord_or_zero i
    | ⟨1, _⟩ => coord_or_zero j)

/-- [a, b, 1] broadcast along its unit axis to [a, b, c], read at (i, j, l): the entry (i, j, 0). -/
theorem alongUnit3_apply (x : (⟨3, ![a, b, 1]⟩ : Shape).Idx → α)
    (h : (⟨3, ![a, b, 1]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i j 0) :=
  broadcastInDim_apply _ h x _ _ (fun d => match d with
    | ⟨0, _⟩ => coord_or_zero i
    | ⟨1, _⟩ => coord_or_zero j
    | ⟨2, _⟩ => (if_pos rfl).symm)

/-- [a, b, n] with a unit axis appended, read at (i, j, k, z): the entry (i, j, k). -/
theorem appendUnit3_apply (x : (⟨3, ![a, b, n]⟩ : Shape).Idx → α)
    (h : (⟨3, ![a, b, n]⟩ : Shape).BroadcastsInDim ⟨4, ![a, b, n, 1]⟩ ![0, 1, 2]) (i : Fin a) (j : Fin b) (k : Fin n)
    (z : Fin 1) : broadcastInDim ⟨4, ![a, b, n, 1]⟩ ![0, 1, 2] h x (ix4 i j k z) = x (ix3 i j k) :=
  broadcastInDim_apply _ h x _ _ (fun d => match d with
    | ⟨0, _⟩ => coord_or_zero i
    | ⟨1, _⟩ => coord_or_zero j
    | ⟨2, _⟩ => coord_or_zero k)

/-- [a, b, n, 1] broadcast along its unit axis to [a, b, n, c], read at (i, j, k, l): the entry (i, j, k, 0). -/
theorem alongUnit4_apply (x : (⟨4, ![a, b, n, 1]⟩ : Shape).Idx → α)
    (h : (⟨4, ![a, b, n, 1]⟩ : Shape).BroadcastsInDim ⟨4, ![a, b, n, c]⟩ ![0, 1, 2, 3]) (i : Fin a) (j : Fin b)
    (k : Fin n) (l : Fin c) : broadcastInDim ⟨4, ![a, b, n, c]⟩ ![0, 1, 2, 3] h x (ix4 i j k l) = x (ix4 i j k 0) :=
  broadcastInDim_apply _ h x _ _ (fun d => match d with
    | ⟨0, _⟩ => coord_or_zero i
    | ⟨1, _⟩ => coord_or_zero j
    | ⟨2, _⟩ => coord_or_zero k
    | ⟨3, _⟩ => (if_pos rfl).symm)

/-- Slot k of the last axis of an [a, b, n] array as an [a, b, 1] slice, read at (i, j, z): the entry (i, j, k). -/
theorem lastSlot_apply (off : Fin 3 → ℕ) (k : Fin n) (h0 : off 0 = 0) (h1 : off 1 = 0) (h2 : off 2 = k.val)
    (x : (⟨3, ![a, b, n]⟩ : Shape).Idx → α) (h : (⟨3, ![a, b, n]⟩ : Shape).Slices off ⟨3, ![a, b, 1]⟩)
    (i : Fin a) (j : Fin b) (z : Fin 1) :
    extractStridedSlice ⟨3, ![a, b, 1]⟩ off x h (ix3 i j z) = x (ix3 i j k) :=
  extractStridedSlice_apply off x h _ _ (fun d => match d with
    | ⟨0, _⟩ => by show i.val = off 0 + i.val; rw [h0, Nat.zero_add]
    | ⟨1, _⟩ => by show j.val = off 1 + j.val; rw [h1, Nat.zero_add]
    | ⟨2, _⟩ => by show k.val = off 2 + z.val; rw [h2, Fin.val_eq_zero z, Nat.add_zero])

/-- An [a, b, 1] array squeezed to [a, b], read at (i, j): the entry (i, j, 0). -/
theorem squeeze_apply (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j 0) :=
  shapeCast_apply x h _ _ (by
    rw [Shape.rowMajor_val_three, Shape.rowMajor_val_two]
    show (i.val * b + j.val) * 1 + 0 = i.val * b + j.val
    omega)

/-- Slot k of the last axis, sliced and squeezed: x[..., k] read at (i, j) is the entry (i, j, k). -/
theorem squeezedSlot_apply (off : Fin 3 → ℕ) (k : Fin n) (h0 : off 0 = 0) (h1 : off 1 = 0) (h2 : off 2 = k.val)
    (x : (⟨3, ![a, b, n]⟩ : Shape).Idx → α) (hs : (⟨3, ![a, b, n]⟩ : Shape).Slices off ⟨3, ![a, b, 1]⟩)
    (hc : (⟨3, ![a, b, 1]⟩ : Shape).ShapeCasts ⟨2, ![a, b]⟩) (i : Fin a) (j : Fin b) :
    shapeCast ⟨2, ![a, b]⟩ (extractStridedSlice ⟨3, ![a, b, 1]⟩ off x hs) hc (ix2 i j) = x (ix3 i j k) :=
  (squeeze_apply _ hc i j).trans (lastSlot_apply off k h0 h1 h2 x hs i j 0)

end Cert.TrailingUnit
-- ==== Proof.WeightLaw.lean ====
/-
  The law that joins the two programs: a weighted sum with the division folded into the weights is the plain
  weighted sum divided once.

  For four real table entries e k, four real weights m k and a nonzero real divisor y, on the extended reals,
      0 + e 0 * (m 0 / y) + e 1 * (m 1 / y) + e 2 * (m 2 / y) + e 3 * (m 3 / y)  =  (0 + sum over k of e k * m k) / y,
  the left side summed in the order the four terms are accumulated.  Division by a nonzero real is multiplication
  by its reciprocal, after which both sides are one real number: distributivity is used, which is why the entries
  must be real (it fails at the infinities).
-/
import Idealize.ShloMosaic.PureOps.Ideal.Laws

noncomputable section

namespace Cert.WeightLaw

open Idealize.ShloMosaic

/-- Four entries, each times its weight divided by y, accumulated from zero: the weighted sum divided by y. -/
theorem folded_eq_divided (e m : Fin 4 → ℝ) {y : ℝ} (hy : y ≠ 0) :
    ((((0 : EReal) + (e 0 : EReal) * Ideal.div (m 0 : EReal) (y : EReal)) + (e 1 : EReal) * Ideal.div (m 1 : EReal) (y : EReal))
        + (e 2 : EReal) * Ideal.div (m 2 : EReal) (y : EReal)) + (e 3 : EReal) * Ideal.div (m 3 : EReal) (y : EReal)
      = Ideal.div ((0 : EReal) + ∑ k : Fin 4, (e k : EReal) * (m k : EReal)) (y : EReal) := by
  simp only [Ideal.div_coe hy, Fin.sum_univ_four]
  norm_cast
  ring

end Cert.WeightLaw

end
-- ==== Proof.Lookup.lean ====
/-
  The lookup both programs begin with, and why the kernel's folded weights give the reference's quotient.

  Per token (b, s): the token id names a row of a map with four slots, each slot an entry number into a table of
  300-wide rows, and a count c of valid slots.  Slot k carries the mask [k < c] and every slot the divisor max(c, 1).
  A negative id or entry number wraps once by the axis length, and the gather itself clamps into range; both programs
  do exactly this, in the same words, so the slots' entry numbers, the mask and the divisor are ONE term on both sides
  (rows, mask, denom below are the reference's own, and the kernel's spellings of them are the same terms).

  The reference gathers all four slots at once, multiplies by the mask, sums over the slot axis and divides once:
      A[b, s, d] = (0 + sum over k of T[row k, d] * mask k) / denom.
  The kernel divides the mask first, takes each slot's column of the [B, S, 4] arrays by a slice, gathers slot by
  slot, and accumulates:
      A'[b, s, d] = 0 + T[row 0, d] * (mask 0 / denom) + ... + T[row 3, d] * (mask 3 / denom).
  The mask is 0 or 1 and the divisor an integer at least 1, both real; with the table's entries real the two are the
  same real number (Cert.WeightLaw.folded_eq_divided).
-/
import proofs.«171435_j61924838474211_2_alg».proof.Proof.Gen.KernelIdeal
import proofs.«171435_j61924838474211_2_alg».proof.Proof.Gen.ReferenceIdeal.Read
import proofs.«171435_j61924838474211_2_alg».proof.Proof.LibGatherBatchRows
import proofs.«171435_j61924838474211_2_alg».proof.Proof.LibTrailingUnit
import proofs.«171435_j61924838474211_2_alg».proof.Proof.WeightLaw
import Idealize.ShloMosaic.Lib.ValueIdx
import Idealize.ShloMosaic.PureOps.Ideal.Laws

noncomputable section

namespace Cert.KernelIdeal.Lookup

open Cert.KernelIdeal Cert.KernelIdeal.Facts₀ Idealize.ShloMosaic Idealize.ShloMosaic.ValueIdx Cert.GatherBatchRows Cert.TrailingUnit

/-! ## The kernel's spelling of the shared terms -/

/-- Token ids with a negative id wrapped by the vocabulary size, as a column of start indices. -/
def idColumn (x0 : IVec S32x2048 32) : IVec S32x2048x1 32 :=
  broadcastInDim S32x2048x1 ![0, 1] bcast_S32x2048_S32x2048x1_0_1
    (select (cmpi .slt x0 (broadcastInDim S32x2048 ![] bcast_S_S32x2048 (constantI S_ 32 0#32)))
      (addi x0 (broadcastInDim S32x2048 ![] bcast_S_S32x2048 (constantI S_ 32 30522#32))) x0)

/-- The four entry numbers of each token. -/
def rowsT (x0 : IVec S32x2048 32) (x2 : IVec S30522x4 32) : IVec S32x2048x4 32 :=
  Host.gather gather_S30522x4_S32x2048x1_S32x2048x4_2_0_n_n_0_2_14 x2 (idColumn x0)

/-- The count of valid slots of each token. -/
def countsT (x0 : IVec S32x2048 32) (x3 : IVec S30522 32) : IVec S32x2048 32 :=
  Host.gather gather_S30522_S32x2048x1_S32x2048_n_0_n_n_0_2_1 x3 (idColumn x0)

/-- The mask [k < count], as a float. -/
def maskT (x0 : IVec S32x2048 32) (x3 : IVec S30522 32) : FVec Ideal S32x2048x4 .f32 :=
  uitofp .f32 (cmpi .slt
    (broadcastInDim S32x2048x4 ![0, 1, 2] bcast_S1x1x4_S32x2048x4_0_1_2
      (broadcastInDim S1x1x4 ![2] bcast_S4_S1x1x4_2 (iotaInDim S4 32 0)))
    (broadcastInDim S32x2048x4 ![0, 1, 2] bcast_S32x2048x1_S32x2048x4_0_1_2
      (broadcastInDim S32x2048x1 ![0, 1] bcast_S32x2048_S32x2048x1_0_1 (countsT x0 x3))))

/-- The divisor max(count, 1), as a float. -/
def denomT (x0 : IVec S32x2048 32) (x3 : IVec S30522 32) : FVec Ideal S32x2048 .f32 :=
  sitofp .f32 (maxsi (countsT x0 x3) (broadcastInDim S32x2048 ![] bcast_S_S32x2048 (constantI S_ 32 1#32)))

theorem rowsT_eq (x0 : IVec S32x2048 32) (x2 : IVec S30522x4 32) :
    rowsT x0 x2 = Cert.ReferenceIdeal.Read.val_main_v6 (F := Ideal) x0 x2 := rfl

theorem maskT_eq (x0 : IVec S32x2048 32) (x3 : IVec S30522 32) :
    maskT x0 x3 = Cert.ReferenceIdeal.Read.val_main_v20 (F := Ideal) x0 x3 := rfl

theorem denomT_eq (x0 : IVec S32x2048 32) (x3 : IVec S30522 32) :
    denomT x0 x3 = Cert.ReferenceIdeal.Read.val_main_v33 (F := Ideal) x0 x3 := rfl

/-! ## The kernel's weights and its four accumulated terms -/

/-- The mask divided by the divisor, slot by slot: the kernel's weights. -/
def weightsOf (Mk : FVec Ideal S32x2048x4 .f32) (D : FVec Ideal S32x2048 .f32) : FVec Ideal S32x2048x4 .f32 :=
  Host.divf Mk (broadcastInDim S32x2048x4 ![0, 1, 2] bcast_S32x2048x1_S32x2048x4_0_1_2
    (broadcastInDim S32x2048x1 ![0, 1] bcast_S32x2048_S32x2048x1_0_1 D))

/-- An entry number wrapped once by the table's length when negative. -/
def wrapWord (v : BitVec 32) : BitVec 32 := Scalar.select (IntOp.cmpi .slt v 0#32) (IntOp.addi v 40943#32) v

/-- The same on an array of entry numbers. -/
def wrapRow (r : IVec S32x2048 32) : IVec S32x2048 32 :=
  select (cmpi .slt r (broadcastInDim S32x2048 ![] bcast_S_S32x2048 (constantI S_ 32 0#32)))
    (addi r (broadcastInDim S32x2048 ![] bcast_S_S32x2048 (constantI S_ 32 40943#32))) r

theorem wrapRow_apply (r : IVec S32x2048 32) (i : S32x2048.Idx) : wrapRow r i = wrapWord (r i) := rfl

/-- One slot's term: the table rows its entry numbers name, times the slot's weight along each row. -/
def slotTerm (off : Fin 3 → ℕ) (hs : S32x2048x4.Slices off S32x2048x1) (R : IVec S32x2048x4 32)
    (Wt : FVec Ideal S32x2048x4 .f32) (x4 : FVec Ideal S40943x300 .f32) : FVec Ideal S32x2048x300 .f32 :=
  mulf
    (Host.gather gather_S40943x300_S32x2048x1_S32x2048x300_2_0_n_n_0_2_1300 x4
      (broadcastInDim S32x2048x1 ![0, 1] bcast_S32x2048_S32x2048x1_0_1
        (wrapRow (shapeCast S32x2048 (extractStridedSlice S32x2048x1 off R hs) shapeCasts_S32x2048x1_S32x2048))))
    (broadcastInDim S32x2048x300 ![0, 1, 2] bcast_S32x2048x1_S32x2048x300_0_1_2
      (broadcastInDim S32x2048x1 ![0, 1] bcast_S32x2048_S32x2048x1_0_1
        (shapeCast S32x2048 (extractStridedSlice S32x2048x1 off Wt hs) shapeCasts_S32x2048x1_S32x2048)))

/-- The four terms accumulated from zero, in the kernel's order. -/
def accumulated (R : IVec S32x2048x4 32) (Wt : FVec Ideal S32x2048x4 .f32) (x4 : FVec Ideal S40943x300 .f32) :
    FVec Ideal S32x2048x300 .f32 :=
  addf (addf (addf (addf (broadcastInDim S32x2048x300 ![] bcast_S_S32x2048x300 (constant S_ .f32 0x00000000#32))
    (slotTerm ![0, 0, 0] slices_S32x2048x4_S32x2048x1_0_0_0 R Wt x4))
    (slotTerm ![0, 0, 1] slices_S32x2048x4_S32x2048x1_0_0_1 R Wt x4))
    (slotTerm ![0, 0, 2] slices_S32x2048x4_S32x2048x1_0_0_2 R Wt x4))
    (slotTerm ![0, 0, 3] slices_S32x2048x4_S32x2048x1_0_0_3 R Wt x4)

/-- What the kernel's host lines compute before the region: the weighted table rows of every token. -/
def wnT (x0 : IVec S32x2048 32) (x2 : IVec S30522x4 32) (x3 : IVec S30522 32) (x4 : FVec Ideal S40943x300 .f32) :
    FVec Ideal S32x2048x300 .f32 :=
  accumulated (rowsT x0 x2) (weightsOf (maskT x0 x3) (denomT x0 x3)) x4

/-! ## Both sides read at (b, s, d) -/

/-- The table entry slot k of token (b, s) names, in column d: the entry number wrapped, then clamped by the gather. -/
def entry (R : IVec S32x2048x4 32) (x4 : FVec Ideal S40943x300 .f32) (b : Fin 32) (s : Fin 2048) (d : Fin 300)
    (k : Fin 4) : EReal :=
  x4 (ix2 (clampRow (N := 40943) (by decide) (wrapWord (R (ix3 b s k)))) d)

/-- The kernel's weight of slot k: the mask over the divisor. -/
theorem weightsOf_apply (Mk : FVec Ideal S32x2048x4 .f32) (D : FVec Ideal S32x2048 .f32) (b : Fin 32) (s : Fin 2048)
    (k : Fin 4) : weightsOf Mk D (ix3 b s k) = Ideal.div (Mk (ix3 b s k)) (D (ix2 b s)) := by
  unfold weightsOf
  show Ideal.div (Mk (ix3 b s k)) (broadcastInDim S32x2048x4 ![0, 1, 2] bcast_S32x2048x1_S32x2048x4_0_1_2
    (broadcastInDim S32x2048x1 ![0, 1] bcast_S32x2048_S32x2048x1_0_1 D) (ix3 b s k)) = _
  rw [alongUnit3_apply, appendUnit2_apply]

/-- One slot's term at (b, s, d): the named table entry times the slot's weight. -/
theorem slotTerm_apply (off : Fin 3 → ℕ) (k : Fin 4) (h0 : off 0 = 0) (h1 : off 1 = 0) (h2 : off 2 = k.val)
    (hs : S32x2048x4.Slices off S32x2048x1) (R : IVec S32x2048x4 32) (Wt : FVec Ideal S32x2048x4 .f32)
    (x4 : FVec Ideal S40943x300 .f32) (b : Fin 32) (s : Fin 2048) (d : Fin 300) :
    slotTerm off hs R Wt x4 (ix3 b s d) = entry R x4 b s d k * Wt (ix3 b s k) := by
  unfold slotTerm entry
  rw [mulf_apply, gather_rows3 (by decide : 0 < 40943) _ rfl rfl rfl rfl rfl rfl, appendUnit2_apply, wrapRow_apply,
    squeezedSlot_apply off k h0 h1 h2, alongUnit3_apply, appendUnit2_apply, squeezedSlot_apply off k h0 h1 h2]

/-- The kernel's accumulation at (b, s, d). -/
theorem accumulated_apply (R : IVec S32x2048x4 32) (Wt : FVec Ideal S32x2048x4 .f32) (x4 : FVec Ideal S40943x300 .f32)
    (b : Fin 32) (s : Fin 2048) (d : Fin 300) :
    accumulated R Wt x4 (ix3 b s d)
      = (((Ideal.ofBits .f32 0x00000000#32 + entry R x4 b s d 0 * Wt (ix3 b s 0)) + entry R x4 b s d 1 * Wt (ix3 b s 1))
          + entry R x4 b s d 2 * Wt (ix3 b s 2)) + entry R x4 b s d 3 * Wt (ix3 b s 3) := by
  unfold accumulated
  rw [addf_apply, addf_apply, addf_apply, addf_apply,
    slotTerm_apply _ 0 rfl rfl rfl, slotTerm_apply _ 1 rfl rfl rfl, slotTerm_apply _ 2 rfl rfl rfl,
    slotTerm_apply _ 3 rfl rfl rfl]
  rfl

/-- The reference's quotient at (b, s, d): the masked entries summed over the slot axis, divided once. -/
theorem reference_apply (x0 : IVec S32x2048 32) (x2 : IVec S30522x4 32) (x3 : IVec S30522 32)
    (x4 : FVec Ideal S40943x300 .f32) (b : Fin 32) (s : Fin 2048) (d : Fin 300) :
    Cert.ReferenceIdeal.Read.val_main_v37 (F := Ideal) x0 x2 x3 x4 (ix3 b s d)
      = Ideal.div (Ideal.ofBits .f32 0x00000000#32
          + ∑ k : Fin 4, entry (Cert.ReferenceIdeal.Read.val_main_v6 (F := Ideal) x0 x2) x4 b s d k
              * Cert.ReferenceIdeal.Read.val_main_v20 (F := Ideal) x0 x3 (ix3 b s k))
        (Cert.ReferenceIdeal.Read.val_main_v33 (F := Ideal) x0 x3 (ix2 b s)) := by
  rw [Cert.ReferenceIdeal.Read.val_main_v37_apply, Cert.ReferenceIdeal.Read.val_main_v34_apply]
  have hden : Cert.ReferenceIdeal.Read.val_main_v36 (F := Ideal) x0 x3 (ix3 b s d)
      = Cert.ReferenceIdeal.Read.val_main_v33 (F := Ideal) x0 x3 (ix2 b s) := by
    unfold Cert.ReferenceIdeal.Read.val_main_v36 Cert.ReferenceIdeal.Read.val_main_v35
    rw [alongUnit3_apply, appendUnit2_apply]
  have hterm : ∀ k : Fin 4, Cert.ReferenceIdeal.Read.val_main_v30 (F := Ideal) x0 x2 x3 x4
        (Cert.ReferenceIdeal.Read.idx_main_v34 (ix3 b s d) k)
      = entry (Cert.ReferenceIdeal.Read.val_main_v6 (F := Ideal) x0 x2) x4 b s d k
          * Cert.ReferenceIdeal.Read.val_main_v20 (F := Ideal) x0 x3 (ix3 b s k) := by
    intro k
    have hi : Cert.ReferenceIdeal.Read.idx_main_v34 (ix3 b s d) k = ix4 b s k d :=
      funext fun a => Fin.ext (by match a with | ⟨0, _⟩ => rfl | ⟨1, _⟩ => rfl | ⟨2, _⟩ => rfl | ⟨3, _⟩ => rfl)
    rw [hi, Cert.ReferenceIdeal.Read.val_main_v30_apply]
    have h27 : Cert.ReferenceIdeal.Read.val_main_v27 (F := Ideal) x0 x2 x4 (ix4 b s k d)
        = entry (Cert.ReferenceIdeal.Read.val_main_v6 (F := Ideal) x0 x2) x4 b s d k := by
      unfold Cert.ReferenceIdeal.Read.val_main_v27 Cert.ReferenceIdeal.Read.val_main_v26 entry
      rw [gather_rows4 (by decide : 0 < 40943) _ rfl rfl rfl rfl rfl rfl, appendUnit3_apply]
      rfl
    have h29 : Cert.ReferenceIdeal.Read.val_main_v29 (F := Ideal) x0 x3 (ix4 b s k d)
        = Cert.ReferenceIdeal.Read.val_main_v20 (F := Ideal) x0 x3 (ix3 b s k) := by
      unfold Cert.ReferenceIdeal.Read.val_main_v29 Cert.ReferenceIdeal.Read.val_main_v28
      rw [alongUnit4_apply, appendUnit3_apply]
    rw [h27, h29]
    rfl
  rw [hden]
  simp only [hterm]
  rfl

/-! ## The divisor is a nonzero real -/

/-- max(v, 1) read signed is at least 1. -/
theorem maxsi_one_ne_zero (v : BitVec 32) : ((IntOp.maxsi v 1#32).toInt : ℝ) ≠ 0 := by
  have h : 1 ≤ (IntOp.maxsi v 1#32).toInt := by
    unfold IntOp.maxsi
    split
    · rename_i h
      have h' : (1#32 : BitVec 32).toInt < v.toInt := by simpa [BitVec.slt] using h
      have h1 : (1#32 : BitVec 32).toInt = 1 := by decide
      omega
    · decide
  have h0 : (IntOp.maxsi v 1#32).toInt ≠ 0 := by omega
  exact_mod_cast h0

/-! ## The two arrays are one -/

/-- With the table's entries real, the kernel's accumulated weighted rows are the reference's quotient, entry by
    entry: the mask and the divisor are real by construction, the divisor nonzero, and the law is
    Cert.WeightLaw.folded_eq_divided. -/
theorem wnT_eq (x0 : IVec S32x2048 32) (x2 : IVec S30522x4 32) (x3 : IVec S30522 32) (x4 : FVec Ideal S40943x300 .f32)
    (hfin : ∀ i, ∃ r : ℝ, x4 i = (r : EReal)) :
    wnT x0 x2 x3 x4 = Cert.ReferenceIdeal.Read.val_main_v37 (F := Ideal) x0 x2 x3 x4 := by
  funext i
  obtain ⟨b, s, d, rfl⟩ : ∃ (b : Fin 32) (s : Fin 2048) (d : Fin 300), i = ix3 b s d := ⟨i 0, i 1, i 2, eq_ix3 i⟩
  unfold wnT
  rw [accumulated_apply, reference_apply, rowsT_eq, maskT_eq, denomT_eq]
  simp only [weightsOf_apply]
  choose e he using fun k : Fin 4 =>
    hfin (ix2 (clampRow (N := 40943) (by decide)
      (wrapWord (Cert.ReferenceIdeal.Read.val_main_v6 (F := Ideal) x0 x2 (ix3 b s k)))) d)
  have hm : ∀ k : Fin 4, Cert.ReferenceIdeal.Read.val_main_v20 (F := Ideal) x0 x3 (ix3 b s k)
      = (((Cert.ReferenceIdeal.Read.val_main_v19 (F := Ideal) x0 x3 (ix3 b s k)).toNat : ℝ) : EReal) := fun _ => rfl
  have hy : Cert.ReferenceIdeal.Read.val_main_v33 (F := Ideal) x0 x3 (ix2 b s)
      = (((IntOp.maxsi (Cert.ReferenceIdeal.Read.val_main_v13 (F := Ideal) x0 x3 (ix2 b s)) 1#32).toInt : ℝ) : EReal) := rfl
  have hz : Ideal.ofBits .f32 0x00000000#32 = (0 : EReal) := Ideal.ofBits_zero_f32
  simp only [entry, he, hm, hy, hz]
  exact Cert.WeightLaw.folded_eq_divided e
    (fun k => ((Cert.ReferenceIdeal.Read.val_main_v19 (F := Ideal) x0 x3 (ix3 b s k)).toNat : ℝ)) (maxsi_one_ne_zero _)

end Cert.KernelIdeal.Lookup

end
-- ==== Proof.Spec.lean ====
/-
  The result as one function of its ingredients, and the reference's last lines as that function.

  Given the per-token weighted rows A : [32, 2048, 300], the weight matrix W : [300, 768], the bias : [768] and the
  residual X : [32, 2048, 768],
      G A W bias X [b, s, h] = ((sum over k of A[b, s, k] * W[k, h]) + bias[h]) + X[b, s, h].
  The reference ends with a product contracted over the last axis of A, the bias broadcast over tokens, and the
  residual added: that is G of its quotient array.
-/
import proofs.«171435_j61924838474211_2_alg».proof.Proof.Gen.ReferenceIdeal.Read
import Idealize.ShloMosaic.Lib.ValueIdx
import Idealize.ShloMosaic.PureOps.Ideal.Laws

noncomputable section

namespace Cert.Spec

open Idealize.ShloMosaic Idealize.ShloMosaic.ValueIdx

/-- Project each token's row through W, add the bias, add the residual. -/
def G (A : FVec Ideal ⟨3, ![32, 2048, 300]⟩ .f32) (W : FVec Ideal ⟨2, ![300, 768]⟩ .f32) (bias : FVec Ideal ⟨1, ![768]⟩ .f32)
    (X : FVec Ideal ⟨3, ![32, 2048, 768]⟩ .f32) : FVec Ideal ⟨3, ![32, 2048, 768]⟩ .f32 :=
  fun i => ((∑ k : Fin 300, A (ix3 (i 0) (i 1) k) * W (ix2 k (i 2))) + bias (ix1 (i 2))) + X i

open Cert.ReferenceIdeal Cert.ReferenceIdeal.Read in
/-- The reference's result is G of its quotient array. -/
theorem reference_is_G (x0 : IVec S32x2048 32) (x1 : FVec Ideal S32x2048x768 .f32) (x2 : IVec S30522x4 32)
    (x3 : IVec S30522 32) (x4 : FVec Ideal S40943x300 .f32) (x5 : FVec Ideal S300x768 .f32) (x6 : FVec Ideal S768 .f32) :
    val_main_v42 (F := Ideal) x0 x1 x2 x3 x4 x5 x6 = G (val_main_v37 (F := Ideal) x0 x2 x3 x4) x5 x6 x1 := by
  funext i
  obtain ⟨b, s, h, rfl⟩ : ∃ (b : Fin 32) (s : Fin 2048) (h : Fin 768), i = ix3 b s h := ⟨i 0, i 1, i 2, eq_ix3 i⟩
  have el : ∀ k : Fin 300, lidx_main_v38 (ix3 b s h) k = ix3 b s k := fun k =>
    funext fun a => Fin.ext (by match a with | ⟨0, _⟩ => rfl | ⟨1, _⟩ => rfl | ⟨2, _⟩ => rfl)
  have er : ∀ k : Fin 300, ridx_main_v38 (ix3 b s h) k = ix2 k h := fun k =>
    funext fun a => Fin.ext (by match a with | ⟨0, _⟩ => rfl | ⟨1, _⟩ => rfl)
  have eb : idx_main_v39 (idx_main_v40 (ix3 b s h)) = ix1 h :=
    funext fun a => Fin.ext (by match a with | ⟨0, _⟩ => rfl)
  rw [val_main_v42_apply, val_main_v41_apply, val_main_v38_apply, val_main_v40_apply, val_main_v39_apply, eb]
  simp only [el, er]
  rfl

end Cert.Spec

end
-- ==== Proof.Finite.lean ====
/-
  What the precondition gives: every entry of the table is a real number.

  The precondition is the conjunction of four "all entries finite" tests, one per float argument, each the
  conjunction over all entries of |x| < +infinity.  On the extended reals |x| = max x (-x) is below +infinity
  exactly when x is neither infinity, that is when x is a real.  Only the table's conjunct is used: the law that
  joins the two programs distributes a product over a sum of table entries.
-/
import proofs.«171435_j61924838474211_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- An extended real whose absolute value compares below the +infinity word is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition every entry of the table argument is a real. -/
theorem table_real (x0 : IVec S32x2048 32) (x1 : FVec Ideal S32x2048x768 .f32) (x2 : IVec S30522x4 32) (x3 : IVec S30522 32)
    (x4 : FVec Ideal S40943x300 .f32) (x5 : FVec Ideal S300x768 .f32) (x6 : FVec Ideal S768 .f32)
    (h : fn (F := Ideal) x0 x1 x2 x3 x4 x5 x6 = fun _ => 1#1) (i : S40943x300.Idx) : ∃ r : ℝ, x4 i = (r : EReal) := by
  have h0 := congrFun h ValueIdx.ix0
  dsimp only [fn, fn_part1] at h0
  obtain ⟨h13, -⟩ := IntOp.andi_eq_one.mp h0
  obtain ⟨h8, -⟩ := IntOp.andi_eq_one.mp h13
  obtain ⟨-, h7⟩ := IntOp.andi_eq_one.mp h8
  exact real_of_abs_lt_inf (x4 i) (Host.reduce_andi_all _ _ _ _ _ h7 i)

end Cert.Finite

end
-- ==== Proof.EntryRows.lean ====
/-
  What the region finds in its first window: the weighted table rows of every token, one row per token.

  The host lines before the region compute the [32, 2048, 300] array of weighted rows (Lookup.wnT), narrow it to
  bf16 — the identity on the extended reals — and lay the 32 x 2048 tokens out as 65536 rows.
-/
import proofs.«171435_j61924838474211_2_alg».proof.Proof.Gen.KernelIdeal.Frame
import proofs.«171435_j61924838474211_2_alg».proof.Proof.Lookup
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (c : Dev nD)

set_option maxHeartbeats 32000000 in
/-- The first window's array at region entry: the weighted rows, narrowed and flattened to [65536, 300]. -/
theorem rows_at_entry :
    (Gen.V m c main_v89 : FVec Ideal S65536x300 .bf16)
      = shapeCast S65536x300
          (truncf .bf16 (Lookup.wnT (m ((c : Thread nD τ).loc main_arg0)) (m ((c : Thread nD τ).loc main_arg2))
            (m ((c : Thread nD τ).loc main_arg3)) (m ((c : Thread nD τ).loc main_arg4))) bitsLt_bf16_f32)
          shapeCasts_S32x2048x300_S65536x300 := by
  show StableHlo.after hostOps0 (fun b => m (c, b)) (Proc.devRef .tc main_v89) = _
  after_results_simp <;> rfl

end Cert.KernelIdeal.Entry

end
-- ==== Proof.EntryRest.lean ====
/-
  What the region finds in its third and fourth windows: the bias as one row, and the residual input with its
  32 x 2048 tokens laid out as 65536 rows.
-/
import proofs.«171435_j61924838474211_2_alg».proof.Proof.Gen.KernelIdeal.Frame
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (c : Dev nD)

set_option maxHeartbeats 32000000 in
/-- The residual input at region entry: the argument flattened to [65536, 768]. -/
theorem residual_at_entry :
    (Gen.V m c main_v90 : FVec Ideal S65536x768 .f32)
      = shapeCast S65536x768 (m ((c : Thread nD τ).loc main_arg1)) shapeCasts_S32x2048x768_S65536x768 := by
  show StableHlo.after hostOps0 (fun b => m (c, b)) (Proc.devRef .tc main_v90) = _
  after_results
  rfl

set_option maxHeartbeats 32000000 in
/-- The bias at region entry: the argument as a [1, 768] row. -/
theorem bias_at_entry :
    (Gen.V m c main_v91 : FVec Ideal S1x768 .f32)
      = shapeCast S1x768 (m ((c : Thread nD τ).loc main_arg6)) shapeCasts_S768_S1x768 := by
  show StableHlo.after hostOps0 (fun b => m (c, b)) (Proc.devRef .tc main_v91) = _
  after_results
  rfl

end Cert.KernelIdeal.Entry

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Body.lean ====
/-
  The kernel body's one store, read at an entry.

  On a block of 1024 token rows the body multiplies the block's [1024, 300] weighted rows by the whole [300, 768]
  weight matrix into a zero accumulator, adds the bias row to every row, and adds the block of the residual input:
      out[p, q] = (sum over k of a[p, k] * w[k, q]) + bias[0, q] + x[p, q].
  The narrowing of the weights to bf16 is the identity on the extended reals.
-/
import proofs.«171435_j61924838474211_2_alg».proof.Proof.Gen.KernelIdeal.Skeleton
import proofs.«171435_j61924838474211_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Facts₀ Cert.KernelIdeal.Gen Idealize.ShloMosaic Idealize.ShloMosaic.ValueIdx

local notation "DD" => dot_S1024x300_S300x768_S1024x768_1_0_0_1_n_n

theorem lhs0 (j : S1024x768.Idx) (q : (DD).contr.Idx) : ((DD).lhsIdx j q (0 : Fin 2)).val = (j (0 : Fin 2)).val := by
  unfold DotDims.lhsIdx
  rw [dif_neg (show ¬(0 : Fin S1024x300.rank) ∈ (DD).lhsBatch by decide),
    dif_pos (show (0 : Fin S1024x300.rank) ∈ (DD).lhsNonContracting by decide)]
  rfl

theorem lhs1 (j : S1024x768.Idx) (q : (DD).contr.Idx) : ((DD).lhsIdx j q (1 : Fin 2)).val = (q ⟨0, by decide⟩).val :=
  (DD).lhsIdx_val_of_single rfl j q

theorem rhs0 (j : S1024x768.Idx) (q : (DD).contr.Idx) : ((DD).rhsIdx j q (0 : Fin 2)).val = (q ⟨0, by decide⟩).val :=
  (DD).rhsIdx_val_of_single rfl j q

theorem rhs1 (j : S1024x768.Idx) (q : (DD).contr.Idx) : ((DD).rhsIdx j q (1 : Fin 2)).val = (j (1 : Fin 2)).val := by
  unfold DotDims.rhsIdx
  rw [dif_neg (show ¬(1 : Fin S300x768.rank) ∈ (DD).rhsBatch by decide),
    dif_pos (show (1 : Fin S300x768.rank) ∈ (DD).rhsNonContracting by decide)]
  rfl

/-- The stored value at (p, q): the row's product with the weights, plus the bias, plus the residual. -/
theorem pay_apply (v0 : Vec Ideal S1024x300 .bf16) (v2 : Vec Ideal S300x768 .f32) (v5 : Vec Ideal S1x768 .f32)
    (v9 : Vec Ideal S1024x768 .f32) (p : Fin 1024) (q : Fin 768) :
    k0_pay1 (F := Ideal) v0 v2 v5 v9 (ix2 p q)
      = ((∑ k : Fin 300, v0 (ix2 p k) * v2 (ix2 k q)) + v5 (ix2 (0 : Fin 1) q)) + v9 (ix2 p q) := by
  unfold k0_pay1
  refine congrArg₂ (· + ·) (congrArg₂ (· + ·) ?_ ?_) ?_
  · refine (Cert.PlainProduct.matmul_zero_entry (DD) rfl rfl lhs0 lhs1 rhs0 rhs1 _ _ p q).trans ?_
    refine Finset.sum_congr rfl fun k _ => ?_
    rw [shapeCast_self]
    rfl
  · refine (broadcastTo_1b_ab_apply _ _ p q).trans ?_
    rw [shapeCast_self]
  · rw [shapeCast_self]

end Cert.KernelIdeal.Body

end
-- ==== Proof.Blocks.lean ====
/-
  From blocks to the array: what the region leaves in its output array.

  The grid has 64 points; point t handles token rows [1024 t, 1024 t + 1024).  Its first and fourth windows' blocks
  are those rows of the weighted-rows array and of the residual, its second and third the whole weight matrix and the
  whole bias row, and its output block those rows of the output.  So what point t writes back is rows
  [1024 t, 1024 t + 1024) of ONE function of the arrays the region finds,
      flat A W bias X [n, h] = ((sum over k of A[n, k] * W[k, h]) + bias[0, h]) + X[n, h],
  and since the 64 row blocks cover all 65536 rows, the output array ends as that function.
-/
import proofs.«171435_j61924838474211_2_alg».proof.Proof.Gen.KernelIdeal.Frame
import proofs.«171435_j61924838474211_2_alg».proof.Proof.Body
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ) (c : Dev nD)

theorem hz : (![0, 0] : Fin 2 → Nat) = fun _ => 0 := funext fun a => by fin_cases a <;> rfl

/-- Each token row projected through the weights, plus the bias row, plus the residual: the output, token rows flat. -/
def flat (A : FVec Ideal S65536x300 .bf16) (W : FVec Ideal S300x768 .f32) (bias2 : FVec Ideal S1x768 .f32)
    (Xf : FVec Ideal S65536x768 .f32) : FVec Ideal S65536x768 .f32 :=
  fun i => ((∑ k : Fin 300, A (ix2 (i 0) k) * W (ix2 k (i 1))) + bias2 (ix2 (0 : Fin 1) (i 1))) + Xf i

/-- The printed index maps over the grid: the row windows sit at block row t, the resident windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's block is token row 1024 t + p. -/
def rowOf (t : Fin cfg0.N) (p : Fin 1024) : Fin 65536 :=
  ⟨t.val * 1024 + p.val, by have ht : t.val < 64 := t.isLt; have hp := p.isLt; omega⟩

/-- Block t of the output of ANY four arrays: the body's result on their blocks at point t is block t of flat of
    the arrays.  Stated over arbitrary arrays, so that nothing here looks inside the arrays the region finds. -/
theorem block_of (t : Fin cfg0.N) (A0 : FVec Ideal S65536x300 .bf16) (A1 : FVec Ideal S300x768 .f32)
    (A2 : FVec Ideal S1x768 .f32) (A3 : FVec Ideal S65536x768 .f32) :
    (cfg0.win 4).cut (grid0.coords t)
        (out0_4 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (flat A0 A1 A2 A3) := by
  unfold out0_4
  rw [View.canon_unit_zero hz]
  simp only [View.ld_unit_zero (S := S1024x300) hz, View.ld_unit_zero (S := S300x768) hz,
    View.ld_unit_zero (S := S1x768) hz, View.ld_unit_zero (S := S1024x768) hz]
  obtain ⟨e00, e01, e10, e11, e20, e21, e30, e31, e40, e41⟩ := idx_facts t
  funext j
  obtain ⟨p, q, rfl⟩ : ∃ (p : Fin 1024) (q : Fin 768), j = ix2 p q := ⟨j 0, j 1, eq_ix2 j⟩
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3) (ix2 p q)
    = flat A0 A1 A2 A3 (((cfg0.win 4).blk t).view.emb (ix2 p q))
  refine (Body.pay_apply (((cfg0.win 0).blk t).view.read (Elt Ideal) A0) (((cfg0.win 1).blk t).view.read (Elt Ideal) A1)
    (((cfg0.win 2).blk t).view.read (Elt Ideal) A2) (((cfg0.win 3).blk t).view.read (Elt Ideal) A3) p q).trans ?_
  have h4 : ((cfg0.win 4).blk t).view.emb (ix2 p q) = ix2 (rowOf t p) q := by
    funext a; apply Fin.ext
    match a with
    | ⟨0, _⟩ => show win0_4.index t (0 : Fin 2) * 1024 + 1 * p.val = t.val * 1024 + p.val; rw [e40]; omega
    | ⟨1, _⟩ => show win0_4.index t (1 : Fin 2) * 768 + 1 * q.val = q.val; rw [e41]; omega
  rw [h4]
  unfold flat
  refine congrArg₂ (· + ·) (congrArg₂ (· + ·) (Finset.sum_congr rfl fun k _ => congrArg₂ (· * ·) ?_ ?_) ?_) ?_
  · show A0 (((cfg0.win 0).blk t).view.emb (ix2 p k)) = A0 (ix2 (rowOf t p) k)
    refine congrArg A0 (funext fun a => Fin.ext ?_)
    match a with
    | ⟨0, _⟩ => show win0_0.index t (0 : Fin 2) * 1024 + 1 * p.val = t.val * 1024 + p.val; rw [e00]; omega
    | ⟨1, _⟩ => show win0_0.index t (1 : Fin 2) * 300 + 1 * k.val = k.val; rw [e01]; omega
  · show A1 (((cfg0.win 1).blk t).view.emb (ix2 k q)) = A1 (ix2 k q)
    refine congrArg A1 (funext fun a => Fin.ext ?_)
    match a with
    | ⟨0, _⟩ => show win0_1.index t (0 : Fin 2) * 300 + 1 * k.val = k.val; rw [e10]; omega
    | ⟨1, _⟩ => show win0_1.index t (1 : Fin 2) * 768 + 1 * q.val = q.val; rw [e11]; omega
  · show A2 (((cfg0.win 2).blk t).view.emb (ix2 (0 : Fin 1) q)) = A2 (ix2 (0 : Fin 1) q)
    refine congrArg A2 (funext fun a => Fin.ext ?_)
    match a with
    | ⟨0, _⟩ => show win0_2.index t (0 : Fin 2) * 1 + 1 * 0 = 0; rw [e20]
    | ⟨1, _⟩ => show win0_2.index t (1 : Fin 2) * 768 + 1 * q.val = q.val; rw [e21]; omega
  · show A3 (((cfg0.win 3).blk t).view.emb (ix2 p q)) = A3 (ix2 (rowOf t p) q)
    refine congrArg A3 (funext fun a => Fin.ext ?_)
    match a with
    | ⟨0, _⟩ => show win0_3.index t (0 : Fin 2) * 1024 + 1 * p.val = t.val * 1024 + p.val; rw [e30]; omega
    | ⟨1, _⟩ => show win0_3.index t (1 : Fin 2) * 768 + 1 * q.val = q.val; rw [e31]; omega

/-- WHAT POINT t WRITES BACK is block t of flat of the arrays the region finds. -/
theorem flushed_eq (t : Fin cfg0.N) :
    (dats m 0 c).flushed 4 t = ((cfg0.win 4).blk t).view.read (Elt Ideal)
      (flat (V m c main_v89) (V m c main_arg5) (V m c main_v91) (V m c main_v90)) := by
  show (cfg0.win 4).cut (grid0.coords t) ((dats m 0 c).after 4 t) = _
  rw [after0_4]
  exact block_of t (V m c main_v89) (V m c main_arg5) (V m c main_v91) (V m c main_v90)

/-- An index of the output array is in point t's block iff each coordinate is in the block's range on its axis. -/
theorem mem_blk (t : Fin cfg0.N) (i : S65536x768.Idx) :
    i ∈ ((cfg0.win 4).blk t).view.set ↔ ∀ a : Fin 2, win0_4.index t a * S1024x768.size a ≤ (i a).val
      ∧ (i a).val < win0_4.index t a * S1024x768.size a + S1024x768.size a := by
  show i ∈ ((View.whole main_v92).slice (win0_4.rect t)).set ↔ _
  rw [View.set_slice_whole, Rect.mem_set_unit]
  exact Iff.rfl

/-- Every index of the output array is in the block of the point its row falls in. -/
theorem cover (i : S65536x768.Idx) :
    ∃ t : Fin cfg0.N, (cfg0.win 4).flush t = true ∧ i ∈ ((cfg0.win 4).blk t).view.set := by
  have hi0 : (i 0).val < 65536 := (i 0).isLt
  have hi1 : (i 1).val < 768 := (i 1).isLt
  have ht : (i 0).val / 1024 < 64 := by omega
  obtain ⟨-, -, -, -, -, -, -, -, e40, e41⟩ := idx_facts (⟨(i 0).val / 1024, ht⟩ : Fin cfg0.N)
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e40]
    show (i 0).val / 1024 * 1024 ≤ (i 0).val ∧ (i 0).val < (i 0).val / 1024 * 1024 + 1024
    omega
  | ⟨1, _⟩ =>
    show win0_4.index ⟨(i 0).val / 1024, ht⟩ (1 : Fin 2) * 768 ≤ (i 1).val
      ∧ (i 1).val < win0_4.index ⟨(i 0).val / 1024, ht⟩ (1 : Fin 2) * 768 + 768
    rw [e41]
    omega

/-- THE OUTPUT ARRAY after the region: flat of the arrays the region finds. -/
theorem final : (dats m 0 c).arrAt 4 cfg0.N
    = flat (V m c main_v89) (V m c main_arg5) (V m c main_v91) (V m c main_v90) :=
  (dats m 0 c).arrAt_eq_of_cover 4 _ (fun t _ => flushed_eq m c t) (cover)

end Cert.KernelIdeal.Blocks

end
-- ==== Proof.LibFlatRows.lean ====
/-
  The leading two axes of a rank-3 array merged into one, and split again.

  An `[a, b, c]` array reshaped to `[n, c]` with `n = a · b` rows (`x.reshape(a * b, c)`: a batch of sequences laid out as
  one list of rows) holds at row `i · b + j`, column `k`, the entry `(i, j, k)`; an `[n, c]` matrix reshaped to `[a, b, c]`
  holds at `(i, j, k)` the entry at row `i · b + j`, column `k`. In both directions the two indices sit at the same
  row-major position. The row is passed as its own variable with the equation `r = i · b + j`, so that a caller whose row
  count is a literal (4096, not 2 · 2048) can use the lemmas as they stand.
-/
import Idealize.ShloMosaic.Lib.Pipeline.Value
import Idealize.ShloMosaic.Lib.ValueIdx

namespace Cert.FlatRows

open Idealize.ShloMosaic Idealize.ShloMosaic.ValueIdx

variable {α : Type}

/-- Rows merged: the `[n, c]` reshape of an `[a, b, c]` array reads, at `(r, k)` with `r = i · b + j`, the operand at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Rows split: the `[a, b, c]` reshape of an `[n, c]` matrix reads, at `(i, j, k)`, the operand at `(r, k)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.FlatRows
-- ==== Proof.KernelValue.lean ====
/-
  The kernel's result: the specification G of the weighted rows, the weights, the bias and the residual.

  After the region the one remaining host line splits the 65536 output rows back into 32 x 2048 tokens.  The output
  array is flat of the arrays the region found (Blocks.final), those arrays are the weighted rows, the bias and
  the residual reshaped (the Entry lemmas), and a reshape moves no entry: row b * 2048 + s of the flat arrays is token
  (b, s).  So entry (b, s, h) of the result is (sum over k of A[b, s, k] * W[k, h]) + bias[h] + X[b, s, h].
-/
import proofs.«171435_j61924838474211_2_alg».proof.Proof.Gen.KernelIdeal.Frame
import proofs.«171435_j61924838474211_2_alg».proof.Proof.EntryRows
import proofs.«171435_j61924838474211_2_alg».proof.Proof.EntryRest
import proofs.«171435_j61924838474211_2_alg».proof.Proof.Blocks
import proofs.«171435_j61924838474211_2_alg».proof.Proof.Spec
import proofs.«171435_j61924838474211_2_alg».proof.Proof.LibFlatRows
import Idealize.ShloMosaic.Lib.StableHlo.Run
import Idealize.ShloMosaic.Lib.ValueLayout
import Idealize.ShloMosaic.Lib.ValueIdx

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- Flat rows split back into tokens: flat of the reshaped ingredients, reshaped, is G of the ingredients. -/
theorem flat_split (A : FVec Ideal S32x2048x300 .f32) (W : FVec Ideal S300x768 .f32) (bias : FVec Ideal S768 .f32)
    (X : FVec Ideal S32x2048x768 .f32) :
    shapeCast S32x2048x768
        (Blocks.flat (shapeCast S65536x300 (truncf .bf16 A bitsLt_bf16_f32) shapeCasts_S32x2048x300_S65536x300) W
          (shapeCast S1x768 bias shapeCasts_S768_S1x768) (shapeCast S65536x768 X shapeCasts_S32x2048x768_S65536x768))
        shapeCasts_S65536x768_S32x2048x768
      = Cert.Spec.G A W bias X := by
  funext i
  obtain ⟨b, s, h, rfl⟩ : ∃ (b : Fin 32) (s : Fin 2048) (h : Fin 768), i = ix3 b s h := ⟨i 0, i 1, i 2, eq_ix3 i⟩
  have hn : b.val * 2048 + s.val < 65536 := by have := b.isLt; have := s.isLt; omega
  rw [Cert.FlatRows.shapeCast_nc_abc_apply _ _ b s h ⟨b.val * 2048 + s.val, hn⟩ rfl]
  unfold Blocks.flat Cert.Spec.G
  refine congrArg₂ (· + ·) (congrArg₂ (· + ·) (Finset.sum_congr rfl fun k _ => congrArg₂ (· * ·) ?_ rfl) ?_) ?_
  · exact Cert.FlatRows.shapeCast_abc_nc_apply _ _ b s k ⟨b.val * 2048 + s.val, hn⟩ rfl
  · exact shapeCast_a_1a_apply _ _ (0 : Fin 1) h
  · exact Cert.FlatRows.shapeCast_abc_nc_apply _ _ b s h ⟨b.val * 2048 + s.val, hn⟩ rfl

variable (m : (ℓ : Loc nD τ sig) → Buf (Elt Ideal) ℓ) (ρ : Dev nD → PrngReg) (c : Dev nD)

set_option maxHeartbeats 8000000 in
/-- The line after the region: the result buffer is the region's output array split into [32, 2048, 768]. -/
theorem tail_eq : Pipeline.afterTail₀ cfgs (dats m) 0 (V0 m) [hostOps1] c main_v93
    = shapeCast S32x2048x768 ((dats m 0 c).arrAt 4 cfg0.N) shapeCasts_S65536x768_S32x2048x768 := by
  unfold Pipeline.afterTail₀
  show StableHlo.after hostOps1 _ (Proc.devRef .tc main_v93) = _
  after_results
  show shapeCast S32x2048x768
      (Pipeline.withArrays (cfgs 0).spec c (V0 m c) (fun w => (dats m 0 c).arrAt w (cfgs 0).N) (Proc.devRef .tc main_v92))
      shapeCasts_S65536x768_S32x2048x768 = _
  exact congrArg (fun A : FVec Ideal S65536x768 .f32 => shapeCast S32x2048x768 A shapeCasts_S65536x768_S32x2048x768)
    (Pipeline.withArrays_arr spec0 launch0.win.arr_inj c (V0 m c) (fun w => (dats m 0 c).arrAt w cfg0.N) 4)

/-- The result buffer after the run: G of the weighted rows, the weights, the bias and the residual. -/
theorem result : Pipeline.afterTail₀ cfgs (dats m) 0 (V0 m) [hostOps1] c main_v93
    = Cert.Spec.G
        (Lookup.wnT (m ((c : Thread nD τ).loc main_arg0)) (m ((c : Thread nD τ).loc main_arg2))
          (m ((c : Thread nD τ).loc main_arg3)) (m ((c : Thread nD τ).loc main_arg4)))
        (m ((c : Thread nD τ).loc main_arg5)) (m ((c : Thread nD τ).loc main_arg6)) (m ((c : Thread nD τ).loc main_arg1)) :=
  (tail_eq m c).trans
    ((congrArg (fun A : FVec Ideal S65536x768 .f32 => shapeCast S32x2048x768 A shapeCasts_S65536x768_S32x2048x768)
      ((Blocks.final m c).trans
        (congr (congr (congr (congrArg Blocks.flat (Entry.rows_at_entry m c)) (V_main_arg5 m c))
          (Entry.bias_at_entry m c)) (Entry.residual_at_entry m c)))).trans
      (flat_split _ _ _ _))

/-- The kernel's run, its result named: every weakly fair execution terminates with the result buffer at G of the
    arguments and the arguments unchanged. -/
theorem run : θ_run defs (onTc (τ := τ) (main (F := Ideal))) ⟨m, fun _ => 0, ρ⟩ (fun r => ∀ c : Dev nD,
      r.2.mem ((c.tc : Thread nD τ).loc main_v93)
        = Cert.Spec.G
            (Lookup.wnT (m ((c.tc : Thread nD τ).loc main_arg0)) (m ((c.tc : Thread nD τ).loc main_arg2))
              (m ((c.tc : Thread nD τ).loc main_arg3)) (m ((c.tc : Thread nD τ).loc main_arg4)))
            (m ((c.tc : Thread nD τ).loc main_arg5)) (m ((c.tc : Thread nD τ).loc main_arg6))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v93 (Pipeline.mem_restRefs_of main_v93 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c))),
      ((h c).2 main_arg6 (Pipeline.mem_restRefs_of main_arg6 (by decide) (by decide))).trans (W_main_arg6 m (dats m) c)⟩)
    (run_main m ρ)

end Cert.KernelIdeal.Result

end
-- ==== Proof.lean ====
/-
  A fused lookup, projection and residual: the kernel and its reference compute the same array on the extended reals.

  Per token the programs look up four entry numbers and a count, gather the four named rows of a 300-wide table,
  weight row k by [k < count] / max(count, 1), project the weighted sum through a [300, 768] matrix and add a bias
  and a residual.  The reference masks, sums over the four slots and divides once; the kernel divides the mask
  first and accumulates the four weighted rows one by one, then runs the projection, bias and residual as one
  pipelined region over 64 blocks of 1024 token rows, and reshapes the rows back into tokens.

  Both results are G A W bias X with A the per-token weighted rows (Cert.Spec.G): for the reference by its last
  three lines (Cert.Spec.reference_is_G), for the kernel by reading its region block by block and its last line
  (Cert.KernelIdeal.Result.run).  The two spellings of A agree entry by entry when the table's entries are real
  (Cert.KernelIdeal.Lookup.wnT_eq), which the precondition says (Cert.Finite.table_real): the step distributes a
  product over a sum, which is false at the infinities.  No rewrite was applied by the idealization, so its
  faithfulness claim is empty, and the three programs' frames are their runs with the results dropped.
-/
import proofs.«171435_j61924838474211_2_alg».proof.Defs
import proofs.«171435_j61924838474211_2_alg».proof.Proof.Gen.Kernel
import proofs.«171435_j61924838474211_2_alg».proof.Proof.Gen.Kernel.Skeleton
import proofs.«171435_j61924838474211_2_alg».proof.Proof.Gen.Kernel.Launch
import proofs.«171435_j61924838474211_2_alg».proof.Proof.Gen.Kernel.Points
import proofs.«171435_j61924838474211_2_alg».proof.Proof.Gen.Kernel.Frame
import proofs.«171435_j61924838474211_2_alg».proof.Proof.Gen.KernelIdeal
import proofs.«171435_j61924838474211_2_alg».proof.Proof.Gen.KernelIdeal.Skeleton
import proofs.«171435_j61924838474211_2_alg».proof.Proof.Gen.KernelIdeal.Launch
import proofs.«171435_j61924838474211_2_alg».proof.Proof.Gen.KernelIdeal.Points
import proofs.«171435_j61924838474211_2_alg».proof.Proof.Gen.KernelIdeal.Frame
import proofs.«171435_j61924838474211_2_alg».proof.Proof.Gen.ReferenceIdeal
import proofs.«171435_j61924838474211_2_alg».proof.Proof.Gen.Pre_finite_inputs
import proofs.«171435_j61924838474211_2_alg».proof.Proof.Gen.ReferenceIdeal.Run
import proofs.«171435_j61924838474211_2_alg».proof.Proof.Gen.ReferenceIdeal.Read
import proofs.«171435_j61924838474211_2_alg».proof.Proof.Lookup
import proofs.«171435_j61924838474211_2_alg».proof.Proof.Spec
import proofs.«171435_j61924838474211_2_alg».proof.Proof.Finite
import proofs.«171435_j61924838474211_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at G of the kernel's weighted rows: the kernel by its own run, the reference because its result is
    G of its quotient array and, the table being real under the precondition, that array is the kernel's. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v42_eq, Cert.Spec.reference_is_G,
    ← Cert.KernelIdeal.Lookup.wnT_eq _ _ _ _ (Cert.Finite.table_real _ _ _ _ _ _ _ (hpre c))]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
